-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x1024 : Shape := ⟨3, ![2, 1024, 1024]⟩
abbrev S2x1024x1024x16 : Shape := ⟨4, ![2, 1024, 1024, 16]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel
  bcast_S_S2x1024x1024x16 : S_.BroadcastsInDim S2x1024x1024x16 (![] : Fin 0 → Fin S2x1024x1024x16.rank)
  reducesTo_S2x1024x1024x16_S_d0_1_2_3 : S2x1024x1024x16.ReducesTo [0, 1, 2, 3] S_
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2x1024x1024 .f32) (main_arg1 : FVec F S2x1024x1024x16 .f32) (main_arg2 : FVec F S3072x1024 .f32) (main_arg3 : FVec F S1024x1024 .f32) (main_arg4 : FVec F S1024 .f32) (main_arg5 : FVec F S1024x1024 .f32) (main_arg6 : FVec F S1024 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  let main_v4 : FVec F S2x1024x1024x16 .f32 := Host.absf main_arg1
  let main_cst_0 : FVec F S_ .f32 := constant S_ .f32 0x7F800000#32
  let main_v5 : FVec F S2x1024x1024x16 .f32 := broadcastInDim S2x1024x1024x16 ![] bcast_S_S2x1024x1024x16 main_cst_0
  let main_v6 : IVec S2x1024x1024x16 1 := cmpf .olt main_v4 main_v5
  let main_c_1 : IVec S_ 1 := constantI S_ 1 1#1
  let main_v7 : IVec S_ 1 := (fun x v => Host.reduce IntOp.andi x v reducesTo_S2x1024x1024x16_S_d0_1_2_3 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x1024x1024 : Shape := ⟨3, ![2, 1024, 1024]⟩
abbrev S2x1024x1024x16 : Shape := ⟨4, ![2, 1024, 1024, 16]⟩
abbrev S3072x1024 : Shape := ⟨2, ![3072, 1024]⟩
abbrev S1024x1024 : Shape := ⟨2, ![1024, 1024]⟩
abbrev S1024 : Shape := ⟨1, ![1024]⟩
abbrev S2x16x1024x64 : Shape := ⟨4, ![2, 16, 1024, 64]⟩
abbrev S192x1024 : Shape := ⟨2, ![192, 1024]⟩
abbrev S2x1x1024x64 : Shape := ⟨4, ![2, 1, 1024, 64]⟩
abbrev S2048x1024 : Shape := ⟨2, ![2048, 1024]⟩
abbrev S1024x192 : Shape := ⟨2, ![1024, 192]⟩
abbrev S2048x192 : Shape := ⟨2, ![2048, 192]⟩
abbrev S2x1024x192 : Shape := ⟨3, ![2, 1024, 192]⟩
abbrev S2x1024x64 : Shape := ⟨3, ![2, 1024, 64]⟩
abbrev S1x1024 : Shape := ⟨2, ![1, 1024]⟩
abbrev S2x1024x16x1024 : Shape := ⟨4, ![2, 1024, 16, 1024]⟩
abbrev S1x16x128x64 : Shape := ⟨4, ![1, 16, 128, 64]⟩
abbrev S1x16x1024x64 : Shape := ⟨4, ![1, 16, 1024, 64]⟩
abbrev S1x128x1024x16 : Shape := ⟨4, ![1, 128, 1024, 16]⟩
abbrev S1x128x1024 : Shape := ⟨3, ![1, 128, 1024]⟩
abbrev S1x1024x16x128 : Shape := ⟨4, ![1, 1024, 16, 128]⟩
abbrev S1x1x128x64 : Shape := ⟨4, ![1, 1, 128, 64]⟩
abbrev S128x64 : Shape := ⟨2, ![128, 64]⟩
abbrev S1x1x1024x64 : Shape := ⟨4, ![1, 1, 1024, 64]⟩
abbrev S1024x64 : Shape := ⟨2, ![1024, 64]⟩
abbrev S1x128x1024x1 : Shape := ⟨4, ![1, 128, 1024, 1]⟩
abbrev S128x1024 : Shape := ⟨2, ![128, 1024]⟩
abbrev S64x1024 : Shape := ⟨2, ![64, 1024]⟩
abbrev S128 : Shape := ⟨1, ![128]⟩
abbrev S128x1 : Shape := ⟨2, ![128, 1]⟩
abbrev S1024x128 : Shape := ⟨2, ![1024, 128]⟩
abbrev S1x1024x1x128 : Shape := ⟨4, ![1, 1024, 1, 128]⟩

abbrev nBuf : Space → Nat
  | .hbm => 14
  | .vmem => 25
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024x16, .f32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2x16x1024x64, .bf16⟩
  | .hbm, ⟨8, _⟩ => ⟨S2x16x1024x64, .bf16⟩
  | .hbm, ⟨9, _⟩ => ⟨S2x16x1024x64, .bf16⟩
  | .hbm, ⟨10, _⟩ => ⟨S1x1024, .f32⟩
  | .hbm, ⟨11, _⟩ => ⟨S1x1024, .f32⟩
  | .hbm, ⟨12, _⟩ => ⟨S2x1024x1024, .f32⟩
  | .hbm, ⟨13, _⟩ => ⟨S2x1024x16x1024, .f32⟩
  | .local _ .vmem, ⟨0, _⟩ => ⟨S2x1024x1024, .f32⟩
  | .local _ .vmem, ⟨1, _⟩ => ⟨S192x1024, .f32⟩
  | .local _ .vmem, ⟨2, _⟩ => ⟨S192x1024, .f32⟩
  | .local _ .vmem, ⟨3, _⟩ => ⟨S2x1x1024x64, .bf16⟩
  | .local _ .vmem, ⟨4, _⟩ => ⟨S2x1x1024x64, .bf16⟩
  | .local _ .vmem, ⟨5, _⟩ => ⟨S2x1x1024x64, .bf16⟩
  | .local _ .vmem, ⟨6, _⟩ => ⟨S2x1x1024x64, .bf16⟩
  | .local _ .vmem, ⟨7, _⟩ => ⟨S2x1x1024x64, .bf16⟩
  | .local _ .vmem, ⟨8, _⟩ => ⟨S2x1x1024x64, .bf16⟩
  | .local _ .vmem, ⟨9, _⟩ => ⟨S1x16x128x64, .bf16⟩
  | .local _ .vmem, ⟨10, _⟩ => ⟨S1x16x128x64, .bf16⟩
  | .local _ .vmem, ⟨11, _⟩ => ⟨S1x16x1024x64, .bf16⟩
  | .local _ .vmem, ⟨12, _⟩ => ⟨S1x16x1024x64, .bf16⟩
  | .local _ .vmem, ⟨13, _⟩ => ⟨S1x128x1024x16, .f32⟩
  | .local _ .vmem, ⟨14, _⟩ => ⟨S1x128x1024x16, .f32⟩
  | .local _ .vmem, ⟨15, _⟩ => ⟨S1x128x1024, .f32⟩
  | .local _ .vmem, ⟨16, _⟩ => ⟨S1x128x1024, .f32⟩
  | .local _ .vmem, ⟨17, _⟩ => ⟨S1024x1024, .f32⟩
  | .local _ .vmem, ⟨18, _⟩ => ⟨S1x1024, .f32⟩
  | .local _ .vmem, ⟨19, _⟩ => ⟨S1024x1024, .f32⟩
  | .local _ .vmem, ⟨20, _⟩ => ⟨S1x1024, .f32⟩
  | .local _ .vmem, ⟨21, _⟩ => ⟨S1x128x1024, .f32⟩
  | .local _ .vmem, ⟨22, _⟩ => ⟨S1x128x1024, .f32⟩
  | .local _ .vmem, ⟨23, _⟩ => ⟨S1x1024x16x128, .f32⟩
  | .local _ .vmem, ⟨24, _⟩ => ⟨S1x1024x16x128, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22
abbrev cc1_sem10_0 : DmaSem sig := 23
abbrev cc1_sem10_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S2x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage1_0 : Fin 2 → Memref sig .tc .vmem S1x16x128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x16x1024x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x16x1024x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x128x1024x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x128x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1024x16x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

class Facts₀ : Prop where
  inb_S2x1024x1024_S2x1024x1024_0_0_0 : ∀ a, (![0, 0, 0] : Fin 3 → Nat) a + S2x1024x1024.size a ≤ S2x1024x1024.size a
  h_S2x1024x1024 : 0 < S2x1024x1024.numel
  bitsLt_bf16_f32 : FTy.bits .bf16 < FTy.bits .f32
  shapeCasts_S2x1024x1024_S2048x1024 : S2x1024x1024.ShapeCasts S2048x1024
  inb_S192x1024_S192x1024_0_0 : ∀ a, (![0, 0] : Fin 2 → Nat) a + S192x1024.size a ≤ S192x1024.size a
  h_S192x1024 : 0 < S192x1024.numel
  transposes_S192x1024_p1_0_S1024x192 : S192x1024.Transposes [1, 0] S1024x192
  shapeCasts_S2048x192_S2x1024x192 : S2048x192.ShapeCasts S2x1024x192
  slices_S2x1024x192_o0_0_0_S2x1024x64 : S2x1024x192.Slices ![0, 0, 0] S2x1024x64
  inb_S2x1x1024x64_S2x1x1024x64_0_0_0_0 : ∀ a, (![0, 0, 0, 0] : Fin 4 → Nat) a + S2x1x1024x64.size a ≤ S2x1x1024x64.size a
  h_S2x1x1024x64 : 0 < S2x1x1024x64.numel
  shapeCasts_S2x1x1024x64_S2x1024x64 : S2x1x1024x64.ShapeCasts S2x1024x64
  shapeCasts_S2x1024x64_S2x1x1024x64 : S2x1024x64.ShapeCasts S2x1x1024x64
  packedbf16_S2x1x1024x64_S2x1x1024x64_0_0_0_0 : (Rect.unit (s := S2x1x1024x64) ![0, 0, 0, 0] S2x1x1024x64.size inb_S2x1x1024x64_S2x1x1024x64_0_0_0_0).PackedRows (EltTy.packing .bf16)
  slices_S2x1024x192_o0_0_64_S2x1024x64 : S2x1024x192.Slices ![0, 0, 64] S2x1024x64
  slices_S2x1024x192_o0_0_128_S2x1024x64 : S2x1024x192.Slices ![0, 0, 128] S2x1024x64
  shapeCasts_S1024_S1x1024 : S1024.ShapeCasts S1x1024
  inb_S1x16x128x64_S1x1x128x64_0_0_0_0 : ∀ a, (![0, 0, 0, 0] : Fin 4 → Nat) a + S1x1x128x64.size a ≤ S1x16x128x64.size a
  h_S1x1x128x64 : 0 < S1x1x128x64.numel
  shapeCasts_S1x1x128x64_S128x64 : S1x1x128x64.ShapeCasts S128x64
  inb_S1x16x1024x64_S1x1x1024x64_0_0_0_0 : ∀ a, (![0, 0, 0, 0] : Fin 4 → Nat) a + S1x1x1024x64.size a ≤ S1x16x1024x64.size a
  h_S1x1x1024x64 : 0 < S1x1x1024x64.numel
  shapeCasts_S1x1x1024x64_S1024x64 : S1x1x1024x64.ShapeCasts S1024x64
  inb_S1x128x1024x16_S1x128x1024x1_0_0_0_0 : ∀ a, (![0, 0, 0, 0] : Fin 4 → Nat) a + S1x128x1024x1.size a ≤ S1x128x1024x16.size a
  h_S1x128x1024x1 : 0 < S1x128x1024x1.numel
  shapeCasts_S1x128x1024x1_S128x1024 : S1x128x1024x1.ShapeCasts S128x1024
  transposes_S1024x64_p1_0_S64x1024 : S1024x64.Transposes [1, 0] S64x1024
  reduces_S128x1024_S128 : S128x1024.Reduces [1] S128
  shapeCasts_S128_S128x1 : S128.ShapeCasts S128x1
  broadcasts_S128x1_S128x1024 : S128x1.Broadcasts S128x1024
  transposes_S128x1024_p1_0_S1024x128 : S128x1024.Transposes [1, 0] S1024x128
  inb_S1x1024x16x128_S1x1024x1x128_0_0_0_0 : ∀ a, (![0, 0, 0, 0] : Fin 4 → Nat) a + S1x1024x1x128.size a ≤ S1x1024x16x128.size a
  h_S1x1024x1x128 : 0 < S1x1024x1x128.numel
  shapeCasts_S1x1024x1x128_S1024x128 : S1x1024x1x128.ShapeCasts S1024x128
  shapeCasts_S1024x128_S1x1024x1x128 : S1024x128.ShapeCasts S1x1024x1x128
  inb_S1x16x128x64_S1x1x128x64_0_1_0_0 : ∀ a, (![0, 1, 0, 0] : Fin 4 → Nat) a + S1x1x128x64.size a ≤ S1x16x128x64.size a
  inb_S1x16x1024x64_S1x1x1024x64_0_1_0_0 : ∀ a, (![0, 1, 0, 0] : Fin 4 → Nat) a + S1x1x1024x64.size a ≤ S1x16x1024x64.size a
  inb_S1x128x1024x16_S1x128x1024x1_0_0_0_1 : ∀ a, (![0, 0, 0, 1] : Fin 4 → Nat) a + S1x128x1024x1.size a ≤ S1x128x1024x16.size a
  inb_S1x1024x16x128_S1x1024x1x128_0_0_1_0 : ∀ a, (![0, 0, 1, 0] : Fin 4 → Nat) a + S1x1024x1x128.size a ≤ S1x1024x16x128.size a
  inb_S1x16x128x64_S1x1x128x64_0_2_0_0 : ∀ a, (![0, 2, 0, 0] : Fin 4 → Nat) a + S1x1x128x64.size a ≤ S1x16x128x64.size a
  inb_S1x16x1024x64_S1x1x1024x64_0_2_0_0 : ∀ a, (![0, 2, 0, 0] : Fin 4 → Nat) a + S1x1x1024x64.size a ≤ S1x16x1024x64.size a
  inb_S1x128x1024x16_S1x128x1024x1_0_0_0_2 : ∀ a, (![0, 0, 0, 2] : Fin 4 → Nat) a + S1x128x1024x1.size a ≤ S1x128x1024x16.size a
  inb_S1x1024x16x128_S1x1024x1x128_0_0_2_0 : ∀ a, (![0, 0, 2, 0] : Fin 4 → Nat) a + S1x1024x1x128.size a ≤ S1x1024x16x128.size a
  inb_S1x16x128x64_S1x1x128x64_0_3_0_0 : ∀ a, (![0, 3, 0, 0] : Fin 4 → Nat) a + S1x1x128x64.size a ≤ S1x16x128x64.size a
  inb_S1x16x1024x64_S1x1x1024x64_0_3_0_0 : ∀ a, (![0, 3, 0, 0] : Fin 4 → Nat) a + S1x1x1024x64.size a ≤ S1x16x1024x64.size a
  inb_S1x128x1024x16_S1x128x1024x1_0_0_0_3 : ∀ a, (![0, 0, 0, 3] : Fin 4 → Nat) a + S1x128x1024x1.size a ≤ S1x128x1024x16.size a
  inb_S1x1024x16x128_S1x1024x1x128_0_0_3_0 : ∀ a, (![0, 0, 3, 0] : Fin 4 → Nat) a + S1x1024x1x128.size a ≤ S1x1024x16x128.size a
  inb_S1x16x128x64_S1x1x128x64_0_4_0_0 : ∀ a, (![0, 4, 0, 0] : Fin 4 → Nat) a + S1x1x128x64.size a ≤ S1x16x128x64.size a
  inb_S1x16x1024x64_S1x1x1024x64_0_4_0_0 : ∀ a, (![0, 4, 0, 0] : Fin 4 → Nat) a + S1x1x1024x64.size a ≤ S1x16x1024x64.size a
  inb_S1x128x1024x16_S1x128x1024x1_0_0_0_4 : ∀ a, (![0, 0, 0, 4] : Fin 4 → Nat) a + S1x128x1024x1.size a ≤ S1x128x1024x16.size a
  inb_S1x1024x16x128_S1x1024x1x128_0_0_4_0 : ∀ a, (![0, 0, 4, 0] : Fin 4 → Nat) a + S1x1024x1x128.size a ≤ S1x1024x16x128.size a
  inb_S1x16x128x64_S1x1x128x64_0_5_0_0 : ∀ a, (![0, 5, 0, 0] : Fin 4 → Nat) a + S1x1x128x64.size a ≤ S1x16x128x64.size a
  inb_S1x16x1024x64_S1x1x1024x64_0_5_0_0 : ∀ a, (![0, 5, 0, 0] : Fin 4 → Nat) a + S1x1x1024x64.size a ≤ S1x16x1024x64.size a
  inb_S1x128x1024x16_S1x128x1024x1_0_0_0_5 : ∀ a, (![0, 0, 0, 5] : Fin 4 → Nat) a + S1x128x1024x1.size a ≤ S1x128x1024x16.size a
  inb_S1x1024x16x128_S1x1024x1x128_0_0_5_0 : ∀ a, (![0, 0, 5, 0] : Fin 4 → Nat) a + S1x1024x1x128.size a ≤ S1x1024x16x128.size a
  inb_S1x16x128x64_S1x1x128x64_0_6_0_0 : ∀ a, (![0, 6, 0, 0] : Fin 4 → Nat) a + S1x1x128x64.size a ≤ S1x16x128x64.size a
  inb_S1x16x1024x64_S1x1x1024x64_0_6_0_0 : ∀ a, (![0, 6, 0, 0] : Fin 4 → Nat) a + S1x1x1024x64.size a ≤ S1x16x1024x64.size a
  inb_S1x128x1024x16_S1x128x1024x1_0_0_0_6 : ∀ a, (![0, 0, 0, 6] : Fin 4 → Nat) a + S1x128x1024x1.size a ≤ S1x128x1024x16.size a
  inb_S1x1024x16x128_S1x1024x1x128_0_0_6_0 : ∀ a, (![0, 0, 6, 0] : Fin 4 → Nat) a + S1x1024x1x128.size a ≤ S1x1024x16x128.size a
  inb_S1x16x128x64_S1x1x128x64_0_7_0_0 : ∀ a, (![0, 7, 0, 0] : Fin 4 → Nat) a + S1x1x128x64.size a ≤ S1x16x128x64.size a
  inb_S1x16x1024x64_S1x1x1024x64_0_7_0_0 : ∀ a, (![0, 7, 0, 0] : Fin 4 → Nat) a + S1x1x1024x64.size a ≤ S1x16x1024x64.size a
  inb_S1x128x1024x16_S1x128x1024x1_0_0_0_7 : ∀ a, (![0, 0, 0, 7] : Fin 4 → Nat) a + S1x128x1024x1.size a ≤ S1x128x1024x16.size a
  inb_S1x1024x16x128_S1x1024x1x128_0_0_7_0 : ∀ a, (![0, 0, 7, 0] : Fin 4 → Nat) a + S1x1024x1x128.size a ≤ S1x1024x16x128.size a
  inb_S1x16x128x64_S1x1x128x64_0_8_0_0 : ∀ a, (![0, 8, 0, 0] : Fin 4 → Nat) a + S1x1x128x64.size a ≤ S1x16x128x64.size a
  inb_S1x16x1024x64_S1x1x1024x64_0_8_0_0 : ∀ a, (![0, 8, 0, 0] : Fin 4 → Nat) a + S1x1x1024x64.size a ≤ S1x16x1024x64.size a
  inb_S1x128x1024x16_S1x128x1024x1_0_0_0_8 : ∀ a, (![0, 0, 0, 8] : Fin 4 → Nat) a + S1x128x1024x1.size a ≤ S1x128x1024x16.size a
  inb_S1x1024x16x128_S1x1024x1x128_0_0_8_0 : ∀ a, (![0, 0, 8, 0] : Fin 4 → Nat) a + S1x1024x1x128.size a ≤ S1x1024x16x128.size a
  inb_S1x16x128x64_S1x1x128x64_0_9_0_0 : ∀ a, (![0, 9, 0, 0] : Fin 4 → Nat) a + S1x1x128x64.size a ≤ S1x16x128x64.size a
  inb_S1x16x1024x64_S1x1x1024x64_0_9_0_0 : ∀ a, (![0, 9, 0, 0] : Fin 4 → Nat) a + S1x1x1024x64.size a ≤ S1x16x1024x64.size a
  inb_S1x128x1024x16_S1x128x1024x1_0_0_0_9 : ∀ a, (![0, 0, 0, 9] : Fin 4 → Nat) a + S1x128x1024x1.size a ≤ S1x128x1024x16.size a
  inb_S1x1024x16x128_S1x1024x1x128_0_0_9_0 : ∀ a, (![0, 0, 9, 0] : Fin 4 → Nat) a + S1x1024x1x128.size a ≤ S1x1024x16x128.size a
  inb_S1x16x128x64_S1x1x128x64_0_10_0_0 : ∀ a, (![0, 10, 0, 0] : Fin 4 → Nat) a + S1x1x128x64.size a ≤ S1x16x128x64.size a
  inb_S1x16x1024x64_S1x1x1024x64_0_10_0_0 : ∀ a, (![0, 10, 0, 0] : Fin 4 → Nat) a + S1x1x1024x64.size a ≤ S1x16x1024x64.size a
  inb_S1x128x1024x16_S1x128x1024x1_0_0_0_10 : ∀ a, (![0, 0, 0, 10] : Fin 4 → Nat) a + S1x128x1024x1.size a ≤ S1x128x1024x16.size a
  inb_S1x1024x16x128_S1x1024x1x128_0_0_10_0 : ∀ a, (![0, 0, 10, 0] : Fin 4 → Nat) a + S1x1024x1x128.size a ≤ S1x1024x16x128.size a
  inb_S1x16x128x64_S1x1x128x64_0_11_0_0 : ∀ a, (![0, 11, 0, 0] : Fin 4 → Nat) a + S1x1x128x64.size a ≤ S1x16x128x64.size a
  inb_S1x16x1024x64_S1x1x1024x64_0_11_0_0 : ∀ a, (![0, 11, 0, 0] : Fin 4 → Nat) a + S1x1x1024x64.size a ≤ S1x16x1024x64.size a
  inb_S1x128x1024x16_S1x128x1024x1_0_0_0_11 : ∀ a, (![0, 0, 0, 11] : Fin 4 → Nat) a + S1x128x1024x1.size a ≤ S1x128x1024x16.size a
  inb_S1x1024x16x128_S1x1024x1x128_0_0_11_0 : ∀ a, (![0, 0, 11, 0] : Fin 4 → Nat) a + S1x1024x1x128.size a ≤ S1x1024x16x128.size a
  inb_S1x16x128x64_S1x1x128x64_0_12_0_0 : ∀ a, (![0, 12, 0, 0] : Fin 4 → Nat) a + S1x1x128x64.size a ≤ S1x16x128x64.size a
  inb_S1x16x1024x64_S1x1x1024x64_0_12_0_0 : ∀ a, (![0, 12, 0, 0] : Fin 4 → Nat) a + S1x1x1024x64.size a ≤ S1x16x1024x64.size a
  inb_S1x128x1024x16_S1x128x1024x1_0_0_0_12 : ∀ a, (![0, 0, 0, 12] : Fin 4 → Nat) a + S1x128x1024x1.size a ≤ S1x128x1024x16.size a
  inb_S1x1024x16x128_S1x1024x1x128_0_0_12_0 : ∀ a, (![0, 0, 12, 0] : Fin 4 → Nat) a + S1x1024x1x128.size a ≤ S1x1024x16x128.size a
  inb_S1x16x128x64_S1x1x128x64_0_13_0_0 : ∀ a, (![0, 13, 0, 0] : Fin 4 → Nat) a + S1x1x128x64.size a ≤ S1x16x128x64.size a
  inb_S1x16x1024x64_S1x1x1024x64_0_13_0_0 : ∀ a, (![0, 13, 0, 0] : Fin 4 → Nat) a + S1x1x1024x64.size a ≤ S1x16x1024x64.size a
  inb_S1x128x1024x16_S1x128x1024x1_0_0_0_13 : ∀ a, (![0, 0, 0, 13] : Fin 4 → Nat) a + S1x128x1024x1.size a ≤ S1x128x1024x16.size a
  inb_S1x1024x16x128_S1x1024x1x128_0_0_13_0 : ∀ a, (![0, 0, 13, 0] : Fin 4 → Nat) a + S1x1024x1x128.size a ≤ S1x1024x16x128.size a
  inb_S1x16x128x64_S1x1x128x64_0_14_0_0 : ∀ a, (![0, 14, 0, 0] : Fin 4 → Nat) a + S1x1x128x64.size a ≤ S1x16x128x64.size a
  inb_S1x16x1024x64_S1x1x1024x64_0_14_0_0 : ∀ a, (![0, 14, 0, 0] : Fin 4 → Nat) a + S1x1x1024x64.size a ≤ S1x16x1024x64.size a
  inb_S1x128x1024x16_S1x128x1024x1_0_0_0_14 : ∀ a, (![0, 0, 0, 14] : Fin 4 → Nat) a + S1x128x1024x1.size a ≤ S1x128x1024x16.size a
  inb_S1x1024x16x128_S1x1024x1x128_0_0_14_0 : ∀ a, (![0, 0, 14, 0] : Fin 4 → Nat) a + S1x1024x1x128.size a ≤ S1x1024x16x128.size a
  inb_S1x16x128x64_S1x1x128x64_0_15_0_0 : ∀ a, (![0, 15, 0, 0] : Fin 4 → Nat) a + S1x1x128x64.size a ≤ S1x16x128x64.size a
  inb_S1x16x1024x64_S1x1x1024x64_0_15_0_0 : ∀ a, (![0, 15, 0, 0] : Fin 4 → Nat) a + S1x1x1024x64.size a ≤ S1x16x1024x64.size a
  inb_S1x128x1024x16_S1x128x1024x1_0_0_0_15 : ∀ a, (![0, 0, 0, 15] : Fin 4 → Nat) a + S1x128x1024x1.size a ≤ S1x128x1024x16.size a
  inb_S1x1024x16x128_S1x1024x1x128_0_0_15_0 : ∀ a, (![0, 0, 15, 0] : Fin 4 → Nat) a + S1x1024x1x128.size a ≤ S1x1024x16x128.size a
  concatenates_S128x64_S128x64_S128x64_S128x64_S128x64_S128x64_S128x64_S128x64_S128x64_S128x64_S128x64_S128x64_S128x64_S128x64_S128x64_S128x64_S128x1024_d1 : Shape.Concatenates [S128x64, S128x64, S128x64, S128x64, S128x64, S128x64, S128x64, S128x64, S128x64, S128x64, S128x64, S128x64, S128x64, S128x64, S128x64, S128x64] S128x1024 1
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  shapeCasts_S128x1024_S1x128x1024 : S128x1024.ShapeCasts S1x128x1024
  dot_S2048x1024_S1024x192_S2048x192_1_0_0_1_n_n_wf : DotDims.WF S2048x1024 S1024x192 S2048x192 [1] [0] [0] [1] [] []
  dot_S128x64_S64x1024_S128x1024_1_0_0_1_n_n_wf : DotDims.WF S128x64 S64x1024 S128x1024 [1] [0] [0] [1] [] []
  dot_S128x1024_S1024x64_S128x64_1_0_0_1_n_n_wf : DotDims.WF S128x1024 S1024x64 S128x64 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S2x1024x1024.size a
  hwx0_0 : ∀ i : grid0.Coords, EltTy.bits .f32 = 32 ∨ (Rect.block (s := S2x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S192x1024.size a ≤ S3072x1024.size a
  hwx0_1 : ∀ i : grid0.Coords, EltTy.bits .f32 = 32 ∨ (Rect.block (s := S3072x1024) S192x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x1024x64.size a ≤ S2x16x1024x64.size a
  hwx0_2 : ∀ i : grid0.Coords, EltTy.bits .bf16 = 32 ∨ (Rect.block (s := S2x16x1024x64) S2x1x1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x1024x64.size a ≤ S2x16x1024x64.size a
  hwx0_3 : ∀ i : grid0.Coords, EltTy.bits .bf16 = 32 ∨ (Rect.block (s := S2x16x1024x64) S2x1x1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x1024x64.size a ≤ S2x16x1024x64.size a
  hwx0_4 : ∀ i : grid0.Coords, EltTy.bits .bf16 = 32 ∨ (Rect.block (s := S2x16x1024x64) S2x1x1024x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x128x64.size a ≤ S2x16x1024x64.size a
  hwx1_0 : ∀ i : grid1.Coords, EltTy.bits .bf16 = 32 ∨ (Rect.block (s := S2x16x1024x64) S1x16x128x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16x1024x64.size a ≤ S2x16x1024x64.size a
  hwx1_1 : ∀ i : grid1.Coords, EltTy.bits .bf16 = 32 ∨ (Rect.block (s := S2x16x1024x64) S1x16x1024x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16x1024x64.size a ≤ S2x16x1024x64.size a
  hwx1_2 : ∀ i : grid1.Coords, EltTy.bits .bf16 = 32 ∨ (Rect.block (s := S2x16x1024x64) S1x16x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1024x16.size a ≤ S2x1024x1024x16.size a
  hwx1_3 : ∀ i : grid1.Coords, EltTy.bits .f32 = 32 ∨ (Rect.block (s := S2x1024x1024x16) S1x128x1024x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x1024.size a ≤ S2x1024x1024.size a
  hwx1_4 : ∀ i : grid1.Coords, EltTy.bits .f32 = 32 ∨ (Rect.block (s := S2x1024x1024) S1x128x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .f32 = 32 ∨ (Rect.block (s := S1024x1024) S1024x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S1024x1024.size a
  hwx1_7 : ∀ i : grid1.Coords, EltTy.bits .f32 = 32 ∨ (Rect.block (s := S1024x1024) S1024x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x128x1024.size a ≤ S2x1024x1024.size a
  hwx1_9 : ∀ i : grid1.Coords, EltTy.bits .f32 = 32 ∨ (Rect.block (s := S2x1024x1024) S1x128x1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1024x16x128.size a ≤ S2x1024x16x1024.size a
  hwx1_10 : ∀ i : grid1.Coords, EltTy.bits .f32 = 32 ∨ (Rect.block (s := S2x1024x16x1024) S1x1024x16x128.size (cc1_transform_10 i) (hinb1_10 i)).WholeWords (EltTy.packing .f32)

variable [Facts₀]

def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf
def dot_S128x64_S64x1024_S128x1024_1_0_0_1_n_n : DotDims S128x64 S64x1024 S128x1024 where
  lhsContracting := [1]
  rhsContracting := [0]
  lhsNonContracting := [0]
  rhsNonContracting := [1]
  lhsBatch := []
  rhsBatch := []
  wf := dot_S128x64_S64x1024_S128x1024_1_0_0_1_n_n_wf
def dot_S128x1024_S1024x64_S128x64_1_0_0_1_n_n : DotDims S128x1024 S1024x64 S128x64 where
  lhsContracting := [1]
  rhsContracting := [0]
  lhsNonContracting := [0]
  rhsNonContracting := [1]
  lhsBatch := []
  rhsBatch := []
  wf := dot_S128x1024_S1024x64_S128x64_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S2x1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S192x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2x1x1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2x1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S2x1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S1x16x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x16x1024x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x16x1024x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x128x1024x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x128x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg3) S1024x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v2) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v3_0) S1x128x1024.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v3_1) S1x1024x16x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S2x1024x1024 : Shape := ⟨3, ![2, 1024, 1024]⟩
abbrev S2x1024x1024x16 : Shape := ⟨4, ![2, 1024, 1024, 16]⟩
abbrev S3072x1024 : Shape := ⟨2, ![3072, 1024]⟩
abbrev S1024x1024 : Shape := ⟨2, ![1024, 1024]⟩
abbrev S1024 : Shape := ⟨1, ![1024]⟩
abbrev S2x1024x3072 : Shape := ⟨3, ![2, 1024, 3072]⟩
abbrev S2x1024x16x192 : Shape := ⟨4, ![2, 1024, 16, 192]⟩
abbrev S2x16x1024x192 : Shape := ⟨4, ![2, 16, 1024, 192]⟩
abbrev S2x16x1024x64 : Shape := ⟨4, ![2, 16, 1024, 64]⟩
abbrev S_ : Shape := ⟨0, ![]⟩
abbrev S2x16x1024x1024 : Shape := ⟨4, ![2, 16, 1024, 1024]⟩
abbrev S2x16x1024 : Shape := ⟨3, ![2, 16, 1024]⟩
abbrev S2x16x1024x1 : Shape := ⟨4, ![2, 16, 1024, 1]⟩
abbrev S2x16x64x1024 : Shape := ⟨4, ![2, 16, 64, 1024]⟩
abbrev S2x1024x16x64 : Shape := ⟨4, ![2, 1024, 16, 64]⟩
abbrev S1x1x1024 : Shape := ⟨3, ![1, 1, 1024]⟩
abbrev S2x1024x16x1024 : Shape := ⟨4, ![2, 1024, 16, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024x16, .f32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2x1024x3072, .f32⟩
  | .hbm, ⟨8, _⟩ => ⟨S2x1024x16x192, .f32⟩
  | .hbm, ⟨9, _⟩ => ⟨S2x16x1024x192, .f32⟩
  | .hbm, ⟨10, _⟩ => ⟨S2x16x1024x64, .f32⟩
  | .hbm, ⟨11, _⟩ => ⟨S2x16x1024x64, .f32⟩
  | .hbm, ⟨12, _⟩ => ⟨S2x16x1024x64, .f32⟩
  | .hbm, ⟨13, _⟩ => ⟨S_, .f32⟩
  | .hbm, ⟨14, _⟩ => ⟨S2x16x1024x64, .f32⟩
  | .hbm, ⟨15, _⟩ => ⟨S2x16x1024x64, .f32⟩
  | .hbm, ⟨16, _⟩ => ⟨S2x16x1024x1024, .f32⟩
  | .hbm, ⟨17, _⟩ => ⟨S2x16x1024x1024, .f32⟩
  | .hbm, ⟨18, _⟩ => ⟨S2x16x1024x1024, .f32⟩
  | .hbm, ⟨19, _⟩ => ⟨S_, .f32⟩
  | .hbm, ⟨20, _⟩ => ⟨S2x16x1024, .f32⟩
  | .hbm, ⟨21, _⟩ => ⟨S_, .f32⟩
  | .hbm, ⟨22, _⟩ => ⟨S2x16x1024, .f32⟩
  | .hbm, ⟨23, _⟩ => ⟨S2x16x1024, .f32⟩
  | .hbm, ⟨24, _⟩ => ⟨S2x16x1024x1, .f32⟩
  | .hbm, ⟨25, _⟩ => ⟨S2x16x1024x1024, .f32⟩
  | .hbm, ⟨26, _⟩ => ⟨S2x16x1024x1024, .f32⟩
  | .hbm, ⟨27, _⟩ => ⟨S2x16x1024x1024, .f32⟩
  | .hbm, ⟨28, _⟩ => ⟨S_, .f32⟩
  | .hbm, ⟨29, _⟩ => ⟨S2x16x1024, .f32⟩
  | .hbm, ⟨30, _⟩ => ⟨S2x16x1024x1, .f32⟩
  | .hbm, ⟨31, _⟩ => ⟨S2x16x1024x1024, .f32⟩
  | .hbm, ⟨32, _⟩ => ⟨S2x16x1024x1024, .f32⟩
  | .hbm, ⟨33, _⟩ => ⟨S2x16x64x1024, .f32⟩
  | .hbm, ⟨34, _⟩ => ⟨S2x1024x16x64, .f32⟩
  | .hbm, ⟨35, _⟩ => ⟨S2x1024x1024, .f32⟩
  | .hbm, ⟨36, _⟩ => ⟨S2x1024x1024, .f32⟩
  | .hbm, ⟨37, _⟩ => ⟨S1x1x1024, .f32⟩
  | .hbm, ⟨38, _⟩ => ⟨S2x1024x1024, .f32⟩
  | .hbm, ⟨39, _⟩ => ⟨S2x1024x1024, .f32⟩
  | .hbm, ⟨40, _⟩ => ⟨S2x1024x1024, .f32⟩
  | .hbm, ⟨41, _⟩ => ⟨S2x1024x1024, .f32⟩
  | .hbm, ⟨42, _⟩ => ⟨S_, .f32⟩
  | .hbm, ⟨43, _⟩ => ⟨S2x1024x1024, .f32⟩
  | .hbm, ⟨44, _⟩ => ⟨S2x1024x1024, .f32⟩
  | .hbm, ⟨45, _⟩ => ⟨S_, .f32⟩
  | .hbm, ⟨46, _⟩ => ⟨S2x1024x1024, .f32⟩
  | .hbm, ⟨47, _⟩ => ⟨S2x1024x1024, .f32⟩
  | .hbm, ⟨48, _⟩ => ⟨S2x1024x1024, .f32⟩
  | .hbm, ⟨49, _⟩ => ⟨S2x1024x1024, .f32⟩
  | .hbm, ⟨50, _⟩ => ⟨S1x1x1024, .f32⟩
  | .hbm, ⟨51, _⟩ => ⟨S2x1024x1024, .f32⟩
  | .hbm, ⟨52, _⟩ => ⟨S2x1024x1024, .f32⟩
  | .hbm, ⟨53, _⟩ => ⟨S2x1024x16x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  shapeCasts_S2x1024x3072_S2x1024x16x192 : S2x1024x3072.ShapeCasts S2x1024x16x192
  transposes_S2x1024x16x192_S2x16x1024x192_0_2_1_3 : S2x1024x16x192.Transposes [0, 2, 1, 3] S2x16x1024x192
  slices_S2x16x1024x192_S2x16x1024x64_0_0_0_0 : S2x16x1024x192.Slices ![0, 0, 0, 0] S2x16x1024x64
  slices_S2x16x1024x192_S2x16x1024x64_0_0_0_64 : S2x16x1024x192.Slices ![0, 0, 0, 64] S2x16x1024x64
  slices_S2x16x1024x192_S2x16x1024x64_0_0_0_128 : S2x16x1024x192.Slices ![0, 0, 0, 128] S2x16x1024x64
  bcast_S_S2x16x1024x64 : S_.BroadcastsInDim S2x16x1024x64 (![] : Fin 0 → Fin S2x16x1024x64.rank)
  transposes_S2x1024x1024x16_S2x16x1024x1024_0_3_1_2 : S2x1024x1024x16.Transposes [0, 3, 1, 2] S2x16x1024x1024
  reducesTo_S2x16x1024x1024_S2x16x1024_d3 : S2x16x1024x1024.ReducesTo [3] S2x16x1024
  h_S_ : 0 < S_.numel
  bcast_S_S2x16x1024 : S_.BroadcastsInDim S2x16x1024 (![] : Fin 0 → Fin S2x16x1024.rank)
  bcast_S2x16x1024_S2x16x1024x1_0_1_2 : S2x16x1024.BroadcastsInDim S2x16x1024x1 (![0, 1, 2] : Fin 3 → Fin S2x16x1024x1.rank)
  bcast_S2x16x1024x1_S2x16x1024x1024_0_1_2_3 : S2x16x1024x1.BroadcastsInDim S2x16x1024x1024 (![0, 1, 2, 3] : Fin 4 → Fin S2x16x1024x1024.rank)
  transposes_S2x16x64x1024_S2x1024x16x64_0_3_1_2 : S2x16x64x1024.Transposes [0, 3, 1, 2] S2x1024x16x64
  shapeCasts_S2x1024x16x64_S2x1024x1024 : S2x1024x16x64.ShapeCasts S2x1024x1024
  bcast_S1024_S1x1x1024_2 : S1024.BroadcastsInDim S1x1x1024 (![2] : Fin 1 → Fin S1x1x1024.rank)
  bcast_S1x1x1024_S2x1024x1024_0_1_2 : S1x1x1024.BroadcastsInDim S2x1024x1024 (![0, 1, 2] : Fin 3 → Fin S2x1024x1024.rank)
  bcast_S_S2x1024x1024 : S_.BroadcastsInDim S2x1024x1024 (![] : Fin 0 → Fin S2x1024x1024.rank)
  transposes_S2x16x1024x1024_S2x1024x16x1024_0_3_1_2 : S2x16x1024x1024.Transposes [0, 3, 1, 2] S2x1024x16x1024
  dot_S2x1024x1024_S3072x1024_S2x1024x3072_2_1_01_0_n_n_wf : DotDims.WF S2x1024x1024 S3072x1024 S2x1024x3072 [2] [1] [0, 1] [0] [] []
  dot_S2x16x1024x64_S2x16x1024x64_S2x16x1024x1024_3_3_2_2_01_01_wf : DotDims.WF S2x16x1024x64 S2x16x1024x64 S2x16x1024x1024 [3] [3] [2] [2] [0, 1] [0, 1]
  dot_S2x16x1024x64_S2x16x1024x1024_S2x16x64x1024_2_3_3_2_01_01_wf : DotDims.WF S2x16x1024x64 S2x16x1024x1024 S2x16x64x1024 [2] [3] [3] [2] [0, 1] [0, 1]
  dot_S2x1024x1024_S1024x1024_S2x1024x1024_2_1_01_0_n_n_wf : DotDims.WF S2x1024x1024 S1024x1024 S2x1024x1024 [2] [1] [0, 1] [0] [] []

variable [Facts₀]

def dot_S2x1024x1024_S3072x1024_S2x1024x3072_2_1_01_0_n_n : DotDims S2x1024x1024 S3072x1024 S2x1024x3072 where
  lhsContracting := [2]
  rhsContracting := [1]
  lhsNonContracting := [0, 1]
  rhsNonContracting := [0]
  lhsBatch := []
  rhsBatch := []
  wf := dot_S2x1024x1024_S3072x1024_S2x1024x3072_2_1_01_0_n_n_wf
def dot_S2x16x1024x64_S2x16x1024x64_S2x16x1024x1024_3_3_2_2_01_01 : DotDims S2x16x1024x64 S2x16x1024x64 S2x16x1024x1024 where
  lhsContracting := [3]
  rhsContracting := [3]
  lhsNonContracting := [2]
  rhsNonContracting := [2]
  lhsBatch := [0, 1]
  rhsBatch := [0, 1]
  wf := dot_S2x16x1024x64_S2x16x1024x64_S2x16x1024x1024_3_3_2_2_01_01_wf
def dot_S2x16x1024x64_S2x16x1024x1024_S2x16x64x1024_2_3_3_2_01_01 : DotDims S2x16x1024x64 S2x16x1024x1024 S2x16x64x1024 where
  lhsContracting := [2]
  rhsContracting := [3]
  lhsNonContracting := [3]
  rhsNonContracting := [2]
  lhsBatch := [0, 1]
  rhsBatch := [0, 1]
  wf := dot_S2x16x1024x64_S2x16x1024x1024_S2x16x64x1024_2_3_3_2_01_01_wf
def dot_S2x1024x1024_S1024x1024_S2x1024x1024_2_1_01_0_n_n : DotDims S2x1024x1024 S1024x1024 S2x1024x1024 where
  lhsContracting := [2]
  rhsContracting := [1]
  lhsNonContracting := [0, 1]
  rhsNonContracting := [0]
  lhsBatch := []
  rhsBatch := []
  wf := dot_S2x1024x1024_S1024x1024_S2x1024x1024_2_1_01_0_n_n_wf

class Facts : Prop extends Facts₀ where

variable [Facts]
-- ==== Proof.Spec.lean ====
/-
  The mathematics both programs compute, index by index over the extended reals.

  From x : [2,1024,1024] and the fused projection weight w : [3072,1024], whose rows are grouped head-major in sixteen
  chunks of 192 = 64 (query) + 64 (key) + 64 (value):
    q[b,h,l,c] = (Σ_e x[b,l,e] · w[192h + c, e]) · 1/8,   k[b,h,l,c] = Σ_e x[b,l,e] · w[192h + 64 + c, e],
    v[b,h,l,c] = Σ_e x[b,l,e] · w[192h + 128 + c, e].
  From q, k, v and the additive bias : [2,1024,1024,16] (batch, query, key, head):
    s[b,h,p,j] = Σ_c q[b,h,p,c] · k[b,h,j,c] + bias[b,p,j,h],      the row's maximum M[b,h,p] = max_j s[b,h,p,j],
    a[b,h,p,j] = exp(s − M) / Σ_j' exp(s[b,h,p,j'] − M)            (a softmax along the keys),
    o[b,p,h,c] = Σ_j a[b,h,p,j] · v[b,h,j,c],
    g[b,p,f]   = 1 / (1 + exp(−(Σ_e x[b,p,e] · wg[f,e] + bg[f])))  (the gate),
    y[b,p,f]   = Σ_e (g[b,p,e] · o[b,p,e / 64,e % 64]) · wo[f,e] + bo[f],
  and the attention weights are returned as attn[b,j,h,p] = a[b,h,p,j].
-/
import Idealize.ShloMosaic.PureOps.Ideal
import Idealize.ShloMosaic.Lib.ValueIdx

noncomputable section

namespace Cert.Spec

open Idealize.ShloMosaic Idealize.ShloMosaic.ValueIdx

abbrev Act := (⟨3, ![2, 1024, 1024]⟩ : Shape).Idx → EReal
abbrev Bias := (⟨4, ![2, 1024, 1024, 16]⟩ : Shape).Idx → EReal
abbrev WProj := (⟨2, ![3072, 1024]⟩ : Shape).Idx → EReal
abbrev WSq := (⟨2, ![1024, 1024]⟩ : Shape).Idx → EReal
abbrev BVec := (⟨1, ![1024]⟩ : Shape).Idx → EReal
abbrev Heads := (⟨4, ![2, 16, 1024, 64]⟩ : Shape).Idx → EReal
abbrev AttnOut := (⟨4, ![2, 1024, 16, 1024]⟩ : Shape).Idx → EReal

/-- The scale 64^(-1/2) = 1/8, as the single-precision word both programs carry. -/
def eighth : EReal := Ideal.ofBits .f32 0x3E000000#32

/-- The initial value of the row maximum: the word of minus infinity. -/
def negInf : EReal := Ideal.ofBits .f32 0xFF800000#32

/-- Row `192h + o + c` of the fused projection weight: column `c` of head `h`'s piece at offset `o` (0 query, 64 key,
    128 value). -/
def wrow (h : Fin 16) (c : Fin 64) (o : Nat) (ho : o ≤ 128) : Fin 3072 := ⟨192 * h.val + o + c.val, by omega⟩

/-- One entry of x · wᵀ. -/
def proj (x : Act) (w : WProj) (b : Fin 2) (l : Fin 1024) (f : Fin 3072) : EReal :=
  ∑ e : Fin 1024, x (ix3 b l e) * w (ix2 f e)

def qAt (x : Act) (w : WProj) (b : Fin 2) (h : Fin 16) (l : Fin 1024) (c : Fin 64) : EReal :=
  proj x w b l (wrow h c 0 (by omega)) * eighth
def kAt (x : Act) (w : WProj) (b : Fin 2) (h : Fin 16) (l : Fin 1024) (c : Fin 64) : EReal :=
  proj x w b l (wrow h c 64 (by omega))
def vAt (x : Act) (w : WProj) (b : Fin 2) (h : Fin 16) (l : Fin 1024) (c : Fin 64) : EReal :=
  proj x w b l (wrow h c 128 (by omega))

/-- The scaled queries, the keys and the values, head-major: [2,16,1024,64]. -/
def Q (x : Act) (w : WProj) : Heads := fun i => qAt x w (i 0) (i 1) (i 2) (i 3)
def K (x : Act) (w : WProj) : Heads := fun i => kAt x w (i 0) (i 1) (i 2) (i 3)
def V (x : Act) (w : WProj) : Heads := fun i => vAt x w (i 0) (i 1) (i 2) (i 3)

/-- The biased score of query `p` against key `j` in head `h`. -/
def score (q k : Heads) (bias : Bias) (b : Fin 2) (h : Fin 16) (p j : Fin 1024) : EReal :=
  (∑ c : Fin 64, q (ix4 b h p c) * k (ix4 b h j c)) + bias (ix4 b p j h)

/-- The largest score of a query's row. -/
def rowMax (q k : Heads) (bias : Bias) (b : Fin 2) (h : Fin 16) (p : Fin 1024) : EReal :=
  (Finset.univ : Finset (Fin 1024)).fold max negInf (fun j => score q k bias b h p j)

def expo (q k : Heads) (bias : Bias) (b : Fin 2) (h : Fin 16) (p j : Fin 1024) : EReal :=
  Ideal.exp (score q k bias b h p j - rowMax q k bias b h p)

def denom (q k : Heads) (bias : Bias) (b : Fin 2) (h : Fin 16) (p : Fin 1024) : EReal :=
  ∑ j : Fin 1024, expo q k bias b h p j

/-- The attention weight of key `j` for query `p` in head `h`. -/
def prob (q k : Heads) (bias : Bias) (b : Fin 2) (h : Fin 16) (p j : Fin 1024) : EReal :=
  Ideal.div (expo q k bias b h p j) (denom q k bias b h p)

/-- The weighted sum of the values. -/
def ctx (q k v : Heads) (bias : Bias) (b : Fin 2) (p : Fin 1024) (h : Fin 16) (c : Fin 64) : EReal :=
  ∑ j : Fin 1024, prob q k bias b h p j * v (ix4 b h j c)

/-- The gate: the logistic function of x · wgᵀ + bg. -/
def gate (x : Act) (wg : WSq) (bg : BVec) (b : Fin 2) (p : Fin 1024) (f : Fin 1024) : EReal :=
  Ideal.logistic ((∑ e : Fin 1024, x (ix3 b p e) * wg (ix2 f e)) + bg (ix1 f))

/-- Feature `e` of the concatenated heads belongs to head `e / 64`, column `e % 64`. -/
def headOf (e : Fin 1024) : Fin 16 := ⟨e.val / 64, by omega⟩
def colOf (e : Fin 1024) : Fin 64 := ⟨e.val % 64, by omega⟩

def yAt (q k v : Heads) (bias : Bias) (x : Act) (wg : WSq) (bg : BVec) (wo : WSq) (bo : BVec)
    (b : Fin 2) (p : Fin 1024) (f : Fin 1024) : EReal :=
  (∑ e : Fin 1024, (gate x wg bg b p e * ctx q k v bias b p (headOf e) (colOf e)) * wo (ix2 f e)) + bo (ix1 f)

/-- The gated, projected output: [2,1024,1024]. -/
def Y (q k v : Heads) (bias : Bias) (x : Act) (wg : WSq) (bg : BVec) (wo : WSq) (bo : BVec) : Act :=
  fun i => yAt q k v bias x wg bg wo bo (i 0) (i 1) (i 2)

/-- The attention weights as returned: [2,1024,16,1024], indexed (batch, key, head, query). -/
def Attn (q k : Heads) (bias : Bias) : AttnOut := fun i => prob q k bias (i 0) (i 2) (i 3) (i 1)

end Cert.Spec

end
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.QkvValue.lean ====
/-
  The first region's three output arrays, as whole arrays.

  The region runs over the sixteen heads. At head h the body sees all of x : [2,1024,1024] and the 192 rows
  192 h … 192 h + 191 of the fused projection weight w : [3072,1024]; it recasts x to [2048,1024], multiplies it by the
  transposed weight block into a zero accumulator, so that entry (1024 b + l, r) of the product is
      Σ_e x[b,l,e] · w[192 h + r, e],
  recasts the product to [2,1024,192], and stores columns 0–63 times the word of 1/8 as head h of the first output,
  columns 64–127 as head h of the second and columns 128–191 as head h of the third (the change of float format
  before each store is the identity on extended reals). The sixteen blocks of each output tile its [2,16,1024,64]
  array, so after the region the three arrays hold the scaled queries, the keys and the values of the specification,
  for whatever contents the region found in its buffers.
-/
import proofs.«175424_j3453153706649_2_alg».proof.Proof.Gen.KernelIdeal.Frame
import proofs.«175424_j3453153706649_2_alg».proof.Proof.Spec
import proofs.«175424_j3453153706649_2_alg».proof.Proof.LibPlainDot
import Idealize.ShloMosaic.Lib.Pipeline.Value
import Idealize.ShloMosaic.Lib.ValueIdx

noncomputable section

namespace Cert.KernelIdeal.QkvValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's stored values at an index -/

/-- The kernel's contraction has the plain dimension numbers of a 2048 x 1024 by 1024 x 192 product. -/
theorem rec_plain : dot_S2048x1024_S1024x192_S2048x192_1_0_0_1_n_n = DotDims.plain 2048 1024 192 := rfl

/-- The projection of one head: entry (b, l, r) of the recast product is the sum over the features e of
    x[b, l, e] times row r of the head's weight block. Row 1024 b + l of the recast activations is (b, l), and the
    transposed block read at (e, r) is the block at (r, e). -/
theorem pay1_apply (x0 : Vec Ideal S2x1024x1024 .f32) (x1 : Vec Ideal S192x1024 .f32) (b : Fin 2) (l : Fin 1024) (r : Fin 192) :
    k0_pay1 x0 x1 (ix3 b l r) = ∑ e : Fin 1024, x0 (ix3 b l e) * x1 (ix2 r e) := by
  unfold k0_pay1
  refine (shapeCast_apply _ _ (ix3 b l r) (ix2 (⟨1024 * b.val + l.val, by omega⟩ : Fin 2048) r) ?_).trans ?_
  · rw [Shape.rowMajor_val_two, Shape.rowMajor_val_three]
    show (1024 * b.val + l.val) * 192 + r.val = (b.val * 1024 + l.val) * 192 + r.val
    omega
  rw [rec_plain]
  refine (Cert.LibPlainDot.matmul_zero_plain 2048 1024 192 none _ _ _).trans ?_
  refine Finset.sum_congr rfl fun e _ => ?_
  refine congrArg₂ (· * ·) ?_ ?_
  · refine (shapeCast_apply _ _ _ (ix3 b l e) ?_).trans rfl
    rw [Shape.rowMajor_val_two, Shape.rowMajor_val_three]
    show (b.val * 1024 + l.val) * 1024 + e.val = (1024 * b.val + l.val) * 1024 + e.val
    omega
  · refine (transpose_apply _ _ _ _ (ix2 r e) ?_).trans rfl
    intro a
    match a with
    | ⟨0, _⟩ => rfl
    | ⟨1, _⟩ => rfl

/-- The scaled queries' block: entry (b, 0, l, c) is column c of the projection times the word of 1/8. -/
theorem pay2_apply (x0 : Vec Ideal S2x1024x1024 .f32) (x1 : Vec Ideal S192x1024 .f32) (b : Fin 2) (z : Fin 1) (l : Fin 1024) (c : Fin 64) :
    k0_pay2 x0 x1 (ix4 b z l c) = (∑ e : Fin 1024, x0 (ix3 b l e) * x1 (ix2 (⟨0 + c.val, by omega⟩ : Fin 192) e)) * Cert.Spec.eighth := by
  unfold k0_pay2
  refine (shapeCast_apply _ _ (ix4 b z l c) (ix3 b l c) ?_).trans ?_
  · rw [Shape.rowMajor_val_three, Shape.rowMajor_val_four]
    show (b.val * 1024 + l.val) * 64 + c.val = ((b.val * 1 + z.val) * 1024 + l.val) * 64 + c.val
    have hz : z.val = 0 := by omega
    rw [hz]; omega
  show extractStridedSlice S2x1024x64 ![0, 0, 0] (k0_pay1 x0 x1) slices_S2x1024x192_o0_0_0_S2x1024x64 (ix3 b l c) * Cert.Spec.eighth = _
  refine congrArg (· * Cert.Spec.eighth) ?_
  refine (extractStridedSlice_apply _ _ _ (ix3 b l c) (ix3 b l (⟨0 + c.val, by omega⟩ : Fin 192)) ?_).trans (pay1_apply x0 x1 b l _)
  intro a
  match a with
  | ⟨0, _⟩ => show b.val = 0 + b.val; omega
  | ⟨1, _⟩ => show l.val = 0 + l.val; omega
  | ⟨2, _⟩ => rfl

/-- The keys' block: entry (b, 0, l, c) is column 64 + c of the projection. -/
theorem pay3_apply (x0 : Vec Ideal S2x1024x1024 .f32) (x1 : Vec Ideal S192x1024 .f32) (b : Fin 2) (z : Fin 1) (l : Fin 1024) (c : Fin 64) :
    k0_pay3 x0 x1 (ix4 b z l c) = ∑ e : Fin 1024, x0 (ix3 b l e) * x1 (ix2 (⟨64 + c.val, by omega⟩ : Fin 192) e) := by
  unfold k0_pay3
  refine (shapeCast_apply _ _ (ix4 b z l c) (ix3 b l c) ?_).trans ?_
  · rw [Shape.rowMajor_val_three, Shape.rowMajor_val_four]
    show (b.val * 1024 + l.val) * 64 + c.val = ((b.val * 1 + z.val) * 1024 + l.val) * 64 + c.val
    have hz : z.val = 0 := by omega
    rw [hz]; omega
  show extractStridedSlice S2x1024x64 ![0, 0, 64] (k0_pay1 x0 x1) slices_S2x1024x192_o0_0_64_S2x1024x64 (ix3 b l c) = _
  refine (extractStridedSlice_apply _ _ _ (ix3 b l c) (ix3 b l (⟨64 + c.val, by omega⟩ : Fin 192)) ?_).trans (pay1_apply x0 x1 b l _)
  intro a
  match a with
  | ⟨0, _⟩ => show b.val = 0 + b.val; omega
  | ⟨1, _⟩ => show l.val = 0 + l.val; omega
  | ⟨2, _⟩ => rfl

/-- The values' block: entry (b, 0, l, c) is column 128 + c of the projection. -/
theorem pay4_apply (x0 : Vec Ideal S2x1024x1024 .f32) (x1 : Vec Ideal S192x1024 .f32) (b : Fin 2) (z : Fin 1) (l : Fin 1024) (c : Fin 64) :
    k0_pay4 x0 x1 (ix4 b z l c) = ∑ e : Fin 1024, x0 (ix3 b l e) * x1 (ix2 (⟨128 + c.val, by omega⟩ : Fin 192) e) := by
  unfold k0_pay4
  refine (shapeCast_apply _ _ (ix4 b z l c) (ix3 b l c) ?_).trans ?_
  · rw [Shape.rowMajor_val_three, Shape.rowMajor_val_four]
    show (b.val * 1024 + l.val) * 64 + c.val = ((b.val * 1 + z.val) * 1024 + l.val) * 64 + c.val
    have hz : z.val = 0 := by omega
    rw [hz]; omega
  show extractStridedSlice S2x1024x64 ![0, 0, 128] (k0_pay1 x0 x1) slices_S2x1024x192_o0_0_128_S2x1024x64 (ix3 b l c) = _
  refine (extractStridedSlice_apply _ _ _ (ix3 b l c) (ix3 b l (⟨128 + c.val, by omega⟩ : Fin 192)) ?_).trans (pay1_apply x0 x1 b l _)
  intro a
  match a with
  | ⟨0, _⟩ => show b.val = 0 + b.val; omega
  | ⟨1, _⟩ => show l.val = 0 + l.val; omega
  | ⟨2, _⟩ => rfl

/-! ## One head's blocks against the whole arrays

At grid point h the body sees all of x and rows 192 h … 192 h + 191 of the fused weight, and writes head h of each
of the three outputs. Stated here over any two blocks that read the arrays that way. -/

/-- Every index of a [2,1,1024,64] block is given by its coordinates; the unit axis has the one coordinate 0. -/
theorem blk_idx (j : S2x1x1024x64.Idx) :
    j = ix4 (⟨(j 0).val, (j 0).isLt⟩ : Fin 2) (⟨(j 1).val, (j 1).isLt⟩ : Fin 1) (⟨(j 2).val, (j 2).isLt⟩ : Fin 1024) (⟨(j 3).val, (j 3).isLt⟩ : Fin 64) := by
  funext a
  match a with
  | ⟨0, _⟩ => rfl
  | ⟨1, _⟩ => rfl
  | ⟨2, _⟩ => rfl
  | ⟨3, _⟩ => rfl

/-- An index of the head-major [2,16,1024,64] array is determined by its four coordinates. -/
theorem heads_idx (i : S2x16x1024x64.Idx) (b : Fin 2) (h : Fin 16) (l : Fin 1024) (c : Fin 64)
    (h0 : (i 0).val = b.val) (h1 : (i 1).val = h.val) (h2 : (i 2).val = l.val) (h3 : (i 3).val = c.val) :
    i = ix4 b h l c := by
  funext a
  apply Fin.ext
  match a with
  | ⟨0, _⟩ => exact h0
  | ⟨1, _⟩ => exact h1
  | ⟨2, _⟩ => exact h2
  | ⟨3, _⟩ => exact h3

section Block
variable (x : Cert.Spec.Act) (w : Cert.Spec.WProj) (x0 : Vec Ideal S2x1024x1024 .f32) (x1 : Vec Ideal S192x1024 .f32) (h : Fin 16)
  (hx : ∀ (b : Fin 2) (l e : Fin 1024), x0 (ix3 b l e) = x (ix3 b l e))
  (hw : ∀ (r : Fin 192) (e : Fin 1024), x1 (ix2 r e) = w (ix2 (⟨192 * h.val + r.val, by omega⟩ : Fin 3072) e))
include hx hw

/-- The query block written at head h is head h of the scaled queries. -/
theorem q_block (j : S2x1x1024x64.Idx) (i : S2x16x1024x64.Idx)
    (h0 : (i 0).val = (j 0).val) (h1 : (i 1).val = h.val) (h2 : (i 2).val = (j 2).val) (h3 : (i 3).val = (j 3).val) :
    k0_pay2 x0 x1 j = Cert.Spec.Q x w i := by
  rw [blk_idx j, heads_idx i ⟨(j 0).val, (j 0).isLt⟩ h ⟨(j 2).val, (j 2).isLt⟩ ⟨(j 3).val, (j 3).isLt⟩ h0 h1 h2 h3, pay2_apply]
  show _ = (∑ e : Fin 1024, x (ix3 _ _ e) * w (ix2 _ e)) * Cert.Spec.eighth
  refine congrArg (· * Cert.Spec.eighth) (Finset.sum_congr rfl fun e _ => ?_)
  rw [hx, hw]
  refine congrArg (fun f => _ * w (ix2 f e)) (Fin.ext ?_)
  show 192 * h.val + (0 + (j 3).val) = 192 * h.val + 0 + (j 3).val
  omega

/-- The key block written at head h is head h of the keys. -/
theorem k_block (j : S2x1x1024x64.Idx) (i : S2x16x1024x64.Idx)
    (h0 : (i 0).val = (j 0).val) (h1 : (i 1).val = h.val) (h2 : (i 2).val = (j 2).val) (h3 : (i 3).val = (j 3).val) :
    k0_pay3 x0 x1 j = Cert.Spec.K x w i := by
  rw [blk_idx j, heads_idx i ⟨(j 0).val, (j 0).isLt⟩ h ⟨(j 2).val, (j 2).isLt⟩ ⟨(j 3).val, (j 3).isLt⟩ h0 h1 h2 h3, pay3_apply]
  show _ = ∑ e : Fin 1024, x (ix3 _ _ e) * w (ix2 _ e)
  refine Finset.sum_congr rfl fun e _ => ?_
  rw [hx, hw]
  refine congrArg (fun f => _ * w (ix2 f e)) (Fin.ext ?_)
  show 192 * h.val + (64 + (j 3).val) = 192 * h.val + 64 + (j 3).val
  omega

/-- The value block written at head h is head h of the values. -/
theorem v_block (j : S2x1x1024x64.Idx) (i : S2x16x1024x64.Idx)
    (h0 : (i 0).val = (j 0).val) (h1 : (i 1).val = h.val) (h2 : (i 2).val = (j 2).val) (h3 : (i 3).val = (j 3).val) :
    k0_pay4 x0 x1 j = Cert.Spec.V x w i := by
  rw [blk_idx j, heads_idx i ⟨(j 0).val, (j 0).isLt⟩ h ⟨(j 2).val, (j 2).isLt⟩ ⟨(j 3).val, (j 3).isLt⟩ h0 h1 h2 h3, pay4_apply]
  show _ = ∑ e : Fin 1024, x (ix3 _ _ e) * w (ix2 _ e)
  refine Finset.sum_congr rfl fun e _ => ?_
  rw [hx, hw]
  refine congrArg (fun f => _ * w (ix2 f e)) (Fin.ext ?_)
  show 192 * h.val + (128 + (j 3).val) = 192 * h.val + 128 + (j 3).val
  omega

end Block

/-! ## The blocks the region reads and writes, as parts of the arrays -/

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The block indices at grid point t, decided over the sixteen points: the activations' window stays at block 0, the
    weight's window is at row block t, and each output's window is at head t. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = t.val ∧ win0_1.index t (1 : Fin 2) = 0
    ∧ win0_2.index t (0 : Fin 4) = 0 ∧ win0_2.index t (1 : Fin 4) = t.val ∧ win0_2.index t (2 : Fin 4) = 0 ∧ win0_2.index t (3 : Fin 4) = 0
    ∧ win0_3.index t (0 : Fin 4) = 0 ∧ win0_3.index t (1 : Fin 4) = t.val ∧ win0_3.index t (2 : Fin 4) = 0 ∧ win0_3.index t (3 : Fin 4) = 0
    ∧ win0_4.index t (0 : Fin 4) = 0 ∧ win0_4.index t (1 : Fin 4) = t.val ∧ win0_4.index t (2 : Fin 4) = 0 ∧ win0_4.index t (3 : Fin 4) = 0 :=
  (by decide +kernel : ∀ t : Fin grid0.N, _)

/-- The activations' block at any point is the whole array. -/
theorem xblk_apply (c : Dev nD) (t : Fin cfg0.N) (b : Fin 2) (l e : Fin 1024) :
    (iblk0 V c 0 t : Vec Ideal S2x1024x1024 .f32) (ix3 b l e) = (V c main_arg0 : S2x1024x1024.Idx → EReal) (ix3 b l e) := by
  obtain ⟨e0, e1, e2, -⟩ := idx_facts t
  unfold iblk0
  rw [View.read_apply]
  show V c main_arg0 _ = V c main_arg0 _
  congr 1
  funext a
  apply Fin.ext
  match a with
  | ⟨0, _⟩ => show win0_0.index t (0 : Fin 3) * 2 + 1 * b.val = b.val; rw [e0]; omega
  | ⟨1, _⟩ => show win0_0.index t (1 : Fin 3) * 1024 + 1 * l.val = l.val; rw [e1]; omega
  | ⟨2, _⟩ => show win0_0.index t (2 : Fin 3) * 1024 + 1 * e.val = e.val; rw [e2]; omega

/-- Row r of the weight's block at point t is row 192 t + r of the fused weight. -/
theorem wblk_apply (c : Dev nD) (t : Fin cfg0.N) (r : Fin 192) (e : Fin 1024) (f : Fin 3072) (hf : f.val = 192 * t.val + r.val) :
    (iblk0 V c 1 t : Vec Ideal S192x1024 .f32) (ix2 r e) = (V c main_arg2 : S3072x1024.Idx → EReal) (ix2 f e) := by
  obtain ⟨-, -, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 192 + 1 * r.val = f.val; rw [e0, hf]; omega
  | ⟨1, _⟩ => show win0_1.index t (1 : Fin 2) * 1024 + 1 * e.val = e.val; rw [e1]; omega

/-! ## What each point writes back is its head of the specification's array -/

/-- Point t writes back block t of the scaled queries. -/
theorem flushed_q (c : Dev nD) (t : Fin cfg0.N) :
    (dat0 (F := Ideal) V c).flushed 2 t = ((cfg0.win 2).blk t).view.read (Elt Ideal) (Cert.Spec.Q (V c main_arg0) (V c main_arg2)) := by
  have hN : grid0.N = 16 := N_0
  have ht : t.val < 16 := by have h : t.val < grid0.N := t.isLt; omega
  obtain ⟨-, -, -, -, -, e0, e1, e2, e3, -⟩ := idx_facts t
  show (cfg0.win 2).cut (grid0.coords t) ((dat0 V c).after 2 t) = _
  rw [after0_2]
  unfold out0_2
  rw [View.canon_unit_zero hz4]
  simp only [View.ld_unit_zero (S := S2x1024x1024) hz3, View.ld_unit_zero (S := S192x1024) hz2]
  funext j
  rw [View.read_apply]
  refine q_block (V c main_arg0) (V c main_arg2) (iblk0 V c 0 t) (iblk0 V c 1 t) ⟨t.val, ht⟩
    (fun b l e => xblk_apply V c t b l e) (fun r e => wblk_apply V c t r e _ rfl) j _ ?_ ?_ ?_ ?_
  · show win0_2.index t (0 : Fin 4) * 2 + 1 * (j 0).val = (j 0).val; rw [e0]; omega
  · show win0_2.index t (1 : Fin 4) * 1 + 1 * (j 1).val = t.val; rw [e1]; have : (j 1).val < 1 := (j 1).isLt; omega
  · show win0_2.index t (2 : Fin 4) * 1024 + 1 * (j 2).val = (j 2).val; rw [e2]; omega
  · show win0_2.index t (3 : Fin 4) * 64 + 1 * (j 3).val = (j 3).val; rw [e3]; omega

/-- Point t writes back block t of the keys. -/
theorem flushed_k (c : Dev nD) (t : Fin cfg0.N) :
    (dat0 (F := Ideal) V c).flushed 3 t = ((cfg0.win 3).blk t).view.read (Elt Ideal) (Cert.Spec.K (V c main_arg0) (V c main_arg2)) := by
  have hN : grid0.N = 16 := N_0
  have ht : t.val < 16 := by have h : t.val < grid0.N := t.isLt; omega
  obtain ⟨-, -, -, -, -, -, -, -, -, e0, e1, e2, e3, -⟩ := idx_facts t
  show (cfg0.win 3).cut (grid0.coords t) ((dat0 V c).after 3 t) = _
  rw [after0_3]
  unfold out0_3
  rw [View.canon_unit_zero hz4]
  simp only [View.ld_unit_zero (S := S2x1024x1024) hz3, View.ld_unit_zero (S := S192x1024) hz2]
  funext j
  rw [View.read_apply]
  refine k_block (V c main_arg0) (V c main_arg2) (iblk0 V c 0 t) (iblk0 V c 1 t) ⟨t.val, ht⟩
    (fun b l e => xblk_apply V c t b l e) (fun r e => wblk_apply V c t r e _ rfl) j _ ?_ ?_ ?_ ?_
  · show win0_3.index t (0 : Fin 4) * 2 + 1 * (j 0).val = (j 0).val; rw [e0]; omega
  · show win0_3.index t (1 : Fin 4) * 1 + 1 * (j 1).val = t.val; rw [e1]; have : (j 1).val < 1 := (j 1).isLt; omega
  · show win0_3.index t (2 : Fin 4) * 1024 + 1 * (j 2).val = (j 2).val; rw [e2]; omega
  · show win0_3.index t (3 : Fin 4) * 64 + 1 * (j 3).val = (j 3).val; rw [e3]; omega

/-- Point t writes back block t of the values. -/
theorem flushed_v (c : Dev nD) (t : Fin cfg0.N) :
    (dat0 (F := Ideal) V c).flushed 4 t = ((cfg0.win 4).blk t).view.read (Elt Ideal) (Cert.Spec.V (V c main_arg0) (V c main_arg2)) := by
  have hN : grid0.N = 16 := N_0
  have ht : t.val < 16 := by have h : t.val < grid0.N := t.isLt; omega
  obtain ⟨-, -, -, -, -, -, -, -, -, -, -, -, -, e0, e1, e2, e3⟩ := idx_facts t
  show (cfg0.win 4).cut (grid0.coords t) ((dat0 V c).after 4 t) = _
  rw [after0_4]
  unfold out0_4
  rw [View.canon_unit_zero hz4]
  simp only [View.ld_unit_zero (S := S2x1024x1024) hz3, View.ld_unit_zero (S := S192x1024) hz2]
  funext j
  rw [View.read_apply]
  refine v_block (V c main_arg0) (V c main_arg2) (iblk0 V c 0 t) (iblk0 V c 1 t) ⟨t.val, ht⟩
    (fun b l e => xblk_apply V c t b l e) (fun r e => wblk_apply V c t r e _ rfl) j _ ?_ ?_ ?_ ?_
  · show win0_4.index t (0 : Fin 4) * 2 + 1 * (j 0).val = (j 0).val; rw [e0]; omega
  · show win0_4.index t (1 : Fin 4) * 1 + 1 * (j 1).val = t.val; rw [e1]; have : (j 1).val < 1 := (j 1).isLt; omega
  · show win0_4.index t (2 : Fin 4) * 1024 + 1 * (j 2).val = (j 2).val; rw [e2]; omega
  · show win0_4.index t (3 : Fin 4) * 64 + 1 * (j 3).val = (j 3).val; rw [e3]; omega

/-! ## The sixteen blocks tile each array, so each array is the specification's -/

/-- An index of the array behind window 2 is in point t's block iff each coordinate is in the block's range on its axis. -/
theorem mem_blk_q (t : Fin cfg0.N) (i : S2x16x1024x64.Idx) :
    i ∈ ((cfg0.win 2).blk t).view.set ↔ ∀ a : Fin 4, win0_2.index t a * S2x1x1024x64.size a ≤ (i a).val ∧ (i a).val < win0_2.index t a * S2x1x1024x64.size a + S2x1x1024x64.size a := by
  show i ∈ ((View.whole main_v0_0).slice (win0_2.rect t)).set ↔ _
  rw [View.set_slice_whole, Rect.mem_set_unit]
  exact Iff.rfl

/-- Every index (b, h, l, c) of that array lies in the block of point h. -/
theorem cover_q (i : S2x16x1024x64.Idx) : ∃ t : Fin cfg0.N, (cfg0.win 2).flush t = true ∧ i ∈ ((cfg0.win 2).blk t).view.set := by
  have hN : grid0.N = 16 := N_0
  have hi0 : (i 0).val < 2 := (i 0).isLt
  have hi1 : (i 1).val < 16 := (i 1).isLt
  have hi2 : (i 2).val < 1024 := (i 2).isLt
  have hi3 : (i 3).val < 64 := (i 3).isLt
  let t : Fin cfg0.N := ⟨(i 1).val, by show (i 1).val < grid0.N; omega⟩
  obtain ⟨-, -, -, -, -, e0, e1, e2, e3, -⟩ := idx_facts t
  refine ⟨t, flush0_2 t, ?_⟩
  rw [mem_blk_q]
  intro a
  match a with
  | ⟨0, _⟩ => show win0_2.index t (0 : Fin 4) * 2 ≤ (i 0).val ∧ (i 0).val < win0_2.index t (0 : Fin 4) * 2 + 2; rw [e0]; omega
  | ⟨1, _⟩ => show win0_2.index t (1 : Fin 4) * 1 ≤ (i 1).val ∧ (i 1).val < win0_2.index t (1 : Fin 4) * 1 + 1; rw [e1]; show (i 1).val * 1 ≤ (i 1).val ∧ (i 1).val < (i 1).val * 1 + 1; omega
  | ⟨2, _⟩ => show win0_2.index t (2 : Fin 4) * 1024 ≤ (i 2).val ∧ (i 2).val < win0_2.index t (2 : Fin 4) * 1024 + 1024; rw [e2]; omega
  | ⟨3, _⟩ => show win0_2.index t (3 : Fin 4) * 64 ≤ (i 3).val ∧ (i 3).val < win0_2.index t (3 : Fin 4) * 64 + 64; rw [e3]; omega

/-- After the region the first output array holds the scaled queries. -/
theorem q_final (c : Dev nD) :
    (dat0 (F := Ideal) V c).arrAt 2 cfg0.N = Cert.Spec.Q (V c main_arg0) (V c main_arg2) :=
  (dat0 (F := Ideal) V c).arrAt_eq_of_cover 2 (Cert.Spec.Q (V c main_arg0) (V c main_arg2)) (fun t _ => flushed_q V c t) cover_q

/-- An index of the array behind window 3 is in point t's block iff each coordinate is in the block's range on its axis. -/
theorem mem_blk_k (t : Fin cfg0.N) (i : S2x16x1024x64.Idx) :
    i ∈ ((cfg0.win 3).blk t).view.set ↔ ∀ a : Fin 4, win0_3.index t a * S2x1x1024x64.size a ≤ (i a).val ∧ (i a).val < win0_3.index t a * S2x1x1024x64.size a + S2x1x1024x64.size a := by
  show i ∈ ((View.whole main_v0_1).slice (win0_3.rect t)).set ↔ _
  rw [View.set_slice_whole, Rect.mem_set_unit]
  exact Iff.rfl

/-- Every index (b, h, l, c) of that array lies in the block of point h. -/
theorem cover_k (i : S2x16x1024x64.Idx) : ∃ t : Fin cfg0.N, (cfg0.win 3).flush t = true ∧ i ∈ ((cfg0.win 3).blk t).view.set := by
  have hN : grid0.N = 16 := N_0
  have hi0 : (i 0).val < 2 := (i 0).isLt
  have hi1 : (i 1).val < 16 := (i 1).isLt
  have hi2 : (i 2).val < 1024 := (i 2).isLt
  have hi3 : (i 3).val < 64 := (i 3).isLt
  let t : Fin cfg0.N := ⟨(i 1).val, by show (i 1).val < grid0.N; omega⟩
  obtain ⟨-, -, -, -, -, -, -, -, -, e0, e1, e2, e3, -⟩ := idx_facts t
  refine ⟨t, flush0_3 t, ?_⟩
  rw [mem_blk_k]
  intro a
  match a with
  | ⟨0, _⟩ => show win0_3.index t (0 : Fin 4) * 2 ≤ (i 0).val ∧ (i 0).val < win0_3.index t (0 : Fin 4) * 2 + 2; rw [e0]; omega
  | ⟨1, _⟩ => show win0_3.index t (1 : Fin 4) * 1 ≤ (i 1).val ∧ (i 1).val < win0_3.index t (1 : Fin 4) * 1 + 1; rw [e1]; show (i 1).val * 1 ≤ (i 1).val ∧ (i 1).val < (i 1).val * 1 + 1; omega
  | ⟨2, _⟩ => show win0_3.index t (2 : Fin 4) * 1024 ≤ (i 2).val ∧ (i 2).val < win0_3.index t (2 : Fin 4) * 1024 + 1024; rw [e2]; omega
  | ⟨3, _⟩ => show win0_3.index t (3 : Fin 4) * 64 ≤ (i 3).val ∧ (i 3).val < win0_3.index t (3 : Fin 4) * 64 + 64; rw [e3]; omega

/-- After the region the second output array holds the keys. -/
theorem k_final (c : Dev nD) :
    (dat0 (F := Ideal) V c).arrAt 3 cfg0.N = Cert.Spec.K (V c main_arg0) (V c main_arg2) :=
  (dat0 (F := Ideal) V c).arrAt_eq_of_cover 3 (Cert.Spec.K (V c main_arg0) (V c main_arg2)) (fun t _ => flushed_k V c t) cover_k

/-- An index of the array behind window 4 is in point t's block iff each coordinate is in the block's range on its axis. -/
theorem mem_blk_v (t : Fin cfg0.N) (i : S2x16x1024x64.Idx) :
    i ∈ ((cfg0.win 4).blk t).view.set ↔ ∀ a : Fin 4, win0_4.index t a * S2x1x1024x64.size a ≤ (i a).val ∧ (i a).val < win0_4.index t a * S2x1x1024x64.size a + S2x1x1024x64.size a := by
  show i ∈ ((View.whole main_v0_2).slice (win0_4.rect t)).set ↔ _
  rw [View.set_slice_whole, Rect.mem_set_unit]
  exact Iff.rfl

/-- Every index (b, h, l, c) of that array lies in the block of point h. -/
theorem cover_v (i : S2x16x1024x64.Idx) : ∃ t : Fin cfg0.N, (cfg0.win 4).flush t = true ∧ i ∈ ((cfg0.win 4).blk t).view.set := by
  have hN : grid0.N = 16 := N_0
  have hi0 : (i 0).val < 2 := (i 0).isLt
  have hi1 : (i 1).val < 16 := (i 1).isLt
  have hi2 : (i 2).val < 1024 := (i 2).isLt
  have hi3 : (i 3).val < 64 := (i 3).isLt
  let t : Fin cfg0.N := ⟨(i 1).val, by show (i 1).val < grid0.N; omega⟩
  obtain ⟨-, -, -, -, -, -, -, -, -, -, -, -, -, e0, e1, e2, e3⟩ := idx_facts t
  refine ⟨t, flush0_4 t, ?_⟩
  rw [mem_blk_v]
  intro a
  match a with
  | ⟨0, _⟩ => show win0_4.index t (0 : Fin 4) * 2 ≤ (i 0).val ∧ (i 0).val < win0_4.index t (0 : Fin 4) * 2 + 2; rw [e0]; omega
  | ⟨1, _⟩ => show win0_4.index t (1 : Fin 4) * 1 ≤ (i 1).val ∧ (i 1).val < win0_4.index t (1 : Fin 4) * 1 + 1; rw [e1]; show (i 1).val * 1 ≤ (i 1).val ∧ (i 1).val < (i 1).val * 1 + 1; omega
  | ⟨2, _⟩ => show win0_4.index t (2 : Fin 4) * 1024 ≤ (i 2).val ∧ (i 2).val < win0_4.index t (2 : Fin 4) * 1024 + 1024; rw [e2]; omega
  | ⟨3, _⟩ => show win0_4.index t (3 : Fin 4) * 64 ≤ (i 3).val ∧ (i 3).val < win0_4.index t (3 : Fin 4) * 64 + 64; rw [e3]; omega

/-- After the region the third output array holds the values. -/
theorem v_final (c : Dev nD) :
    (dat0 (F := Ideal) V c).arrAt 4 cfg0.N = Cert.Spec.V (V c main_arg0) (V c main_arg2) :=
  (dat0 (F := Ideal) V c).arrAt_eq_of_cover 4 (Cert.Spec.V (V c main_arg0) (V c main_arg2)) (fun t _ => flushed_v V c t) cover_v

end Cert.KernelIdeal.QkvValue

end
-- ==== Proof.RowFns.lean ====
/-
  One query row of one head, as functions of the row's 64 query entries, the head's 1024 x 64 keys, the row's 1024
  bias entries and the head's 1024 x 64 values: the biased scores s_j = Σ_c q_c · k_{j,c} + bias_j, their maximum M, the
  softmax weights a_j = exp(s_j − M) / Σ_j' exp(s_j' − M), and the weighted values Σ_j a_j · v_{j,c}. And one output row:
  the gate 1 / (1 + exp(−(Σ_e x_e · wg_{f,e} + bg_f))) and y_f = Σ_e (g_e · o_{e/64, e%64}) · wo_{f,e} + bo_f.
  The array-level specification is these applied to the rows the arrays hold, by unfolding.
-/
import proofs.«175424_j3453153706649_2_alg».proof.Proof.Spec

noncomputable section

namespace Cert.Rows

open Idealize.ShloMosaic Idealize.ShloMosaic.ValueIdx

def rscore (qr : Fin 64 → EReal) (km : Fin 1024 → Fin 64 → EReal) (br : Fin 1024 → EReal) (j : Fin 1024) : EReal :=
  (∑ c : Fin 64, qr c * km j c) + br j

def rmax (qr : Fin 64 → EReal) (km : Fin 1024 → Fin 64 → EReal) (br : Fin 1024 → EReal) : EReal :=
  (Finset.univ : Finset (Fin 1024)).fold max Cert.Spec.negInf (fun j => rscore qr km br j)

def rexp (qr : Fin 64 → EReal) (km : Fin 1024 → Fin 64 → EReal) (br : Fin 1024 → EReal) (j : Fin 1024) : EReal :=
  Ideal.exp (rscore qr km br j - rmax qr km br)

def rden (qr : Fin 64 → EReal) (km : Fin 1024 → Fin 64 → EReal) (br : Fin 1024 → EReal) : EReal :=
  ∑ j : Fin 1024, rexp qr km br j

def rprob (qr : Fin 64 → EReal) (km : Fin 1024 → Fin 64 → EReal) (br : Fin 1024 → EReal) (j : Fin 1024) : EReal :=
  Ideal.div (rexp qr km br j) (rden qr km br)

def rctx (qr : Fin 64 → EReal) (km : Fin 1024 → Fin 64 → EReal) (br : Fin 1024 → EReal)
    (vm : Fin 1024 → Fin 64 → EReal) (c : Fin 64) : EReal :=
  ∑ j : Fin 1024, rprob qr km br j * vm j c

def rgate (xr : Fin 1024 → EReal) (wgm : Fin 1024 → Fin 1024 → EReal) (bgr : Fin 1024 → EReal) (f : Fin 1024) : EReal :=
  Ideal.logistic ((∑ e : Fin 1024, xr e * wgm f e) + bgr f)

def ry (gr : Fin 1024 → EReal) (cr : Fin 16 → Fin 64 → EReal) (wom : Fin 1024 → Fin 1024 → EReal)
    (bor : Fin 1024 → EReal) (f : Fin 1024) : EReal :=
  (∑ e : Fin 1024, (gr e * cr (Cert.Spec.headOf e) (Cert.Spec.colOf e)) * wom f e) + bor f

open Cert.Spec in
theorem prob_eq (q k : Heads) (bias : Bias) (b : Fin 2) (h : Fin 16) (p j : Fin 1024) :
    prob q k bias b h p j
      = rprob (fun c => q (ix4 b h p c)) (fun j c => k (ix4 b h j c)) (fun j => bias (ix4 b p j h)) j := rfl

open Cert.Spec in
theorem ctx_eq (q k v : Heads) (bias : Bias) (b : Fin 2) (p : Fin 1024) (h : Fin 16) (c : Fin 64) :
    ctx q k v bias b p h c
      = rctx (fun c => q (ix4 b h p c)) (fun j c => k (ix4 b h j c)) (fun j => bias (ix4 b p j h))
          (fun j c => v (ix4 b h j c)) c := rfl

open Cert.Spec in
theorem gate_eq (x : Act) (wg : WSq) (bg : BVec) (b : Fin 2) (p f : Fin 1024) :
    gate x wg bg b p f = rgate (fun e => x (ix3 b p e)) (fun f e => wg (ix2 f e)) (fun f => bg (ix1 f)) f := rfl

open Cert.Spec in
theorem yAt_eq (q k v : Heads) (bias : Bias) (x : Act) (wg : WSq) (bg : BVec) (wo : WSq) (bo : BVec)
    (b : Fin 2) (p f : Fin 1024) :
    yAt q k v bias x wg bg wo bo b p f
      = ry (fun e => gate x wg bg b p e) (fun h c => ctx q k v bias b p h c) (fun f e => wo (ix2 f e))
          (fun f => bo (ix1 f)) f := rfl

end Cert.Rows

end
-- ==== Proof.LibRowMax.lean ====
/-
  A maximum reduction of an [a, b] array along its last axis, at the exact values, read at row i: the fold of `max`
  from the accumulator's value over the row's entries. A general module: general in the extents and the format.
-/
import Idealize.ShloMosaic.Lib.ValueIdx
import Idealize.ShloMosaic.PureOps.Reduce
import Idealize.ShloMosaic.PureOps.Ideal.Laws

namespace Cert.LibRowMax

open Idealize.ShloMosaic Idealize.ShloMosaic.ValueIdx

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- A maximum reduction of `[a, b]` along its last axis, at the exact values, read at `i`: the fold of `max` from the
    accumulator's value over the row. -/
theorem multiReduction_max_last_ab {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => (Finset.univ : Finset (Fin b)).fold max (Ideal.ofBits φ acc) f)
      (funext fun k => congrArg src (lift_last_ab h i k)))

end Cert.LibRowMax
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.HeadAt.lean ====
/-
  One head's tile of the attention kernel, read at an index. From the head's query tile q : [128,64], its transposed keys
  kt : [64,1024] and its bias tile bs : [128,1024] the body forms the score tile q · kt + bs, each row's maximum as a column
  broadcast back across the lanes, the exponentials of the differences, each row's sum the same way, and the quotient;
  then the product with the values, and the transposed quotient recast as a [1,1024,1,128] slab of the attention
  output. Row r of each is the row-level softmax of the row's entries.
-/
import proofs.«175424_j3453153706649_2_alg».proof.Proof.Gen.KernelIdeal.Skeleton
import proofs.«175424_j3453153706649_2_alg».proof.Proof.RowFns
import proofs.«175424_j3453153706649_2_alg».proof.Proof.LibPlainDot
import proofs.«175424_j3453153706649_2_alg».proof.Proof.LibRowMax
import proofs.«175424_j3453153706649_2_alg».proof.Proof.LibKeepdims
import Idealize.ShloMosaic.Lib.Pipeline.Value
import Idealize.ShloMosaic.Lib.ValueIdx
import Idealize.ShloMosaic.PureOps.Ideal.Laws

noncomputable section

namespace Cert.KernelIdeal.HeadAt

open Idealize.ShloMosaic Idealize.ShloMosaic.ValueIdx Cert.KernelIdeal Cert.KernelIdeal.Gen Cert.Rows

/-- The score tile: q · kt into a zero accumulator, plus the bias tile. -/
def scoreTile (q : FVec Ideal S128x64 .bf16) (bs : FVec Ideal S128x1024 .f32) (kt : FVec Ideal S64x1024 .bf16) :
    FVec Ideal S128x1024 .f32 :=
  addf (matmul dot_S128x64_S64x1024_S128x1024_1_0_0_1_n_n none q kt (constant S128x1024 .f32 0x00000000#32)) bs

/-- Each row's maximum, as a column broadcast back across the lanes. -/
def maxCol (S : FVec Ideal S128x1024 .f32) : FVec Ideal S128x1024 .f32 :=
  broadcastTo S128x1024 (shapeCast S128x1 (multiReduction .maximumf [1] S128 S 0xFF800000#32 reduces_S128x1024_S128 (.inl rfl) rfl)
    shapeCasts_S128_S128x1) broadcasts_S128x1_S128x1024

/-- Each row's sum, as a column broadcast back across the lanes. -/
def sumCol (E : FVec Ideal S128x1024 .f32) : FVec Ideal S128x1024 .f32 :=
  broadcastTo S128x1024 (shapeCast S128x1 (multiReduction .add [1] S128 E 0x00000000#32 reduces_S128x1024_S128 (.inl rfl) rfl)
    shapeCasts_S128_S128x1) broadcasts_S128x1_S128x1024

def expTile (S : FVec Ideal S128x1024 .f32) : FVec Ideal S128x1024 .f32 := exp (subf S (maxCol S))

def probTile (S : FVec Ideal S128x1024 .f32) : FVec Ideal S128x1024 .f32 := divf (expTile S) (sumCol (expTile S))

theorem scoreTile_apply (q : FVec Ideal S128x64 .bf16) (bs : FVec Ideal S128x1024 .f32) (kt : FVec Ideal S64x1024 .bf16)
    (r : Fin 128) (j : Fin 1024) :
    scoreTile q bs kt (ix2 r j) = rscore (fun c => q (ix2 r c)) (fun j c => kt (ix2 c j)) (fun j => bs (ix2 r j)) j :=
  congrArg (· + bs (ix2 r j)) (Cert.LibPlainDot.matmul_zero_plain 128 64 1024 none q kt (ix2 r j))

theorem maxCol_apply (S : FVec Ideal S128x1024 .f32) (r : Fin 128) (j : Fin 1024) :
    maxCol S (ix2 r j) = (Finset.univ : Finset (Fin 1024)).fold max Cert.Spec.negInf (fun k => S (ix2 r k)) :=
  (Cert.LibKeepdims.broadcastTo_a1_ab_apply _ broadcasts_S128x1_S128x1024 r j).trans
    ((Cert.LibKeepdims.shapeCast_a_a1_apply _ shapeCasts_S128_S128x1 r (0 : Fin 1)).trans
      (Cert.LibRowMax.multiReduction_max_last_ab S 0xFF800000#32 reduces_S128x1024_S128 (.inl rfl) rfl r))

theorem sumCol_apply (E : FVec Ideal S128x1024 .f32) (r : Fin 128) (j : Fin 1024) :
    sumCol E (ix2 r j) = ∑ k : Fin 1024, E (ix2 r k) :=
  (Cert.LibKeepdims.broadcastTo_a1_ab_apply _ broadcasts_S128x1_S128x1024 r j).trans
    ((Cert.LibKeepdims.shapeCast_a_a1_apply _ shapeCasts_S128_S128x1 r (0 : Fin 1)).trans
      (Cert.LibKeepdims.multiReduction_add_last_ab E 0x00000000#32 reduces_S128x1024_S128 (.inl rfl) rfl r))

theorem expTile_apply (S : FVec Ideal S128x1024 .f32) (r : Fin 128) (j : Fin 1024) :
    expTile S (ix2 r j)
      = Ideal.exp (S (ix2 r j) - (Finset.univ : Finset (Fin 1024)).fold max Cert.Spec.negInf (fun k => S (ix2 r k))) :=
  congrArg (fun m => Ideal.exp (S (ix2 r j) - m)) (maxCol_apply S r j)

theorem probTile_apply (S : FVec Ideal S128x1024 .f32) (r : Fin 128) (j : Fin 1024) :
    probTile S (ix2 r j) = Ideal.div (expTile S (ix2 r j)) (∑ k : Fin 1024, expTile S (ix2 r k)) :=
  congrArg (Ideal.div (expTile S (ix2 r j))) (sumCol_apply (expTile S) r j)

/-- Row r of the quotient tile is the row-level softmax of row r's scores. -/
theorem probs_apply (q : FVec Ideal S128x64 .bf16) (bs : FVec Ideal S128x1024 .f32) (kt : FVec Ideal S64x1024 .bf16)
    (r : Fin 128) (j : Fin 1024) :
    probTile (scoreTile q bs kt) (ix2 r j)
      = rprob (fun c => q (ix2 r c)) (fun j c => kt (ix2 c j)) (fun j => bs (ix2 r j)) j := by
  have hS : (fun k => scoreTile q bs kt (ix2 r k))
      = fun k => rscore (fun c => q (ix2 r c)) (fun j c => kt (ix2 c j)) (fun j => bs (ix2 r j)) k :=
    funext fun k => scoreTile_apply q bs kt r k
  have hE : ∀ k : Fin 1024, expTile (scoreTile q bs kt) (ix2 r k)
      = rexp (fun c => q (ix2 r c)) (fun j c => kt (ix2 c j)) (fun j => bs (ix2 r j)) k := fun k => by
    rw [expTile_apply, hS, scoreTile_apply]; rfl
  rw [probTile_apply, hE j, Finset.sum_congr rfl fun k _ => hE k]; rfl

/-- The generated payloads of the head whose pieces arrive as vectors are these tiles. -/
theorem pay18_eq (q : FVec Ideal S128x64 .bf16) (bs : FVec Ideal S128x1024 .f32) (kt : FVec Ideal S64x1024 .bf16) :
    k1_pay18 (F := Ideal) q bs kt = probTile (scoreTile q bs kt) := rfl

/-- The product with the values: row r, column c is the row's weighted sum of the values' column c. -/
theorem ctx_apply (q : FVec Ideal S128x64 .bf16) (v : FVec Ideal S1024x64 .bf16) (bs : FVec Ideal S128x1024 .f32)
    (kt : FVec Ideal S64x1024 .bf16) (r : Fin 128) (c : Fin 64) :
    k1_pay19 (F := Ideal) q v bs kt (ix2 r c)
      = rctx (fun c => q (ix2 r c)) (fun j c => kt (ix2 c j)) (fun j => bs (ix2 r j)) (fun j c => v (ix2 j c)) c := by
  refine (Cert.LibPlainDot.matmul_zero_plain 128 1024 64 none _ v (ix2 r c)).trans ?_
  refine Finset.sum_congr rfl fun j _ => ?_
  exact congrArg (· * v (ix2 j c)) (probs_apply q bs kt r j)

/-- The transposed quotient recast as a slab [1,1024,1,128]: entry (0, j, 0, r) is row r's weight of key j. -/
theorem slab_apply (q : FVec Ideal S128x64 .bf16) (bs : FVec Ideal S128x1024 .f32) (kt : FVec Ideal S64x1024 .bf16)
    (j : Fin 1024) (r : Fin 128) :
    k1_pay20 (F := Ideal) q bs kt (ix4 (0 : Fin 1) j (0 : Fin 1) r)
      = rprob (fun c => q (ix2 r c)) (fun j c => kt (ix2 c j)) (fun j => bs (ix2 r j)) j := by
  show shapeCast S1x1024x1x128 (transpose S1024x128 [1, 0] (probTile (scoreTile q bs kt)) transposes_S128x1024_p1_0_S1024x128)
      shapeCasts_S1024x128_S1x1024x1x128 (ix4 (0 : Fin 1) j (0 : Fin 1) r) = _
  refine (shapeCast_apply _ shapeCasts_S1024x128_S1x1024x1x128 (ix4 (0 : Fin 1) j (0 : Fin 1) r) (ix2 j r) ?_).trans ?_
  · rw [Shape.rowMajor_val_two, Shape.rowMajor_val_four]
    show j.val * 128 + r.val = ((0 * 1024 + j.val) * 1 + 0) * 128 + r.val
    omega
  · refine (transpose_apply [1, 0] _ transposes_S128x1024_p1_0_S1024x128 (ix2 j r) (ix2 r j) ?_).trans
      (probs_apply q bs kt r j)
    intro b
    match b with
    | ⟨0, _⟩ => rfl
    | ⟨1, _⟩ => rfl

end Cert.KernelIdeal.HeadAt

end
-- ==== Proof.Loads.lean ====
/-
  Head h's pieces of the second kernel's blocks. The body reads, for each of the sixteen heads, the head's [128,64] slice
  of the query block, its [1024,64] slices of the key and value blocks and its [128,1024] slice of the bias block (the head
  is the LAST axis of the bias block, the second axis of the others), and writes the head's [1024,128] slab of the
  attention block (the head is its third axis). Read at an index, each slice is the block's entry at the head's
  coordinate; so the head's context tile and attention slab are the row-level softmax of the block's own entries.
-/
import proofs.«175424_j3453153706649_2_alg».proof.Proof.HeadAt

noncomputable section

namespace Cert.KernelIdeal.Loads

open Idealize.ShloMosaic Idealize.ShloMosaic.ValueIdx Cert.KernelIdeal Cert.KernelIdeal.Gen Cert.Rows Cert.KernelIdeal.HeadAt

/-- Head h's slice of the query block [1,16,128,64]. -/
abbrev rq (h : Fin 16) : Rect S1x16x128x64 :=
  Rect.unit (s := S1x16x128x64) ![0, h.val, 0, 0] S1x1x128x64.size (fun a => by
    have := h.isLt
    match a with
    | ⟨0, _⟩ => exact Nat.le_refl _
    | ⟨1, _⟩ => show h.val + 1 ≤ 16; omega
    | ⟨2, _⟩ => exact Nat.le_refl _
    | ⟨3, _⟩ => exact Nat.le_refl _)

/-- Head h's slice of the key (or value) block [1,16,1024,64]. -/
abbrev rk (h : Fin 16) : Rect S1x16x1024x64 :=
  Rect.unit (s := S1x16x1024x64) ![0, h.val, 0, 0] S1x1x1024x64.size (fun a => by
    have := h.isLt
    match a with
    | ⟨0, _⟩ => exact Nat.le_refl _
    | ⟨1, _⟩ => show h.val + 1 ≤ 16; omega
    | ⟨2, _⟩ => exact Nat.le_refl _
    | ⟨3, _⟩ => exact Nat.le_refl _)

/-- Head h's slice of the bias block [1,128,1024,16]. -/
abbrev rb (h : Fin 16) : Rect S1x128x1024x16 :=
  Rect.unit (s := S1x128x1024x16) ![0, 0, 0, h.val] S1x128x1024x1.size (fun a => by
    have := h.isLt
    match a with
    | ⟨0, _⟩ => exact Nat.le_refl _
    | ⟨1, _⟩ => exact Nat.le_refl _
    | ⟨2, _⟩ => exact Nat.le_refl _
    | ⟨3, _⟩ => show h.val + 1 ≤ 16; omega)

/-- Head h's slab of the attention block [1,1024,16,128]. -/
abbrev ra (h : Fin 16) : Rect S1x1024x16x128 :=
  Rect.unit (s := S1x1024x16x128) ![0, 0, h.val, 0] S1x1024x1x128.size (fun a => by
    have := h.isLt
    match a with
    | ⟨0, _⟩ => exact Nat.le_refl _
    | ⟨1, _⟩ => exact Nat.le_refl _
    | ⟨2, _⟩ => show h.val + 1 ≤ 16; omega
    | ⟨3, _⟩ => exact Nat.le_refl _)

theorem emb_rq (h : Fin 16) (r : Fin 128) (c : Fin 64) :
    (rq h).emb (ix4 (0 : Fin 1) (0 : Fin 1) r c) = ix4 (0 : Fin 1) h r c := by
  funext a; apply Fin.ext
  match a with
  | ⟨0, _⟩ => rfl
  | ⟨1, _⟩ => show h.val + 1 * 0 = h.val; omega
  | ⟨2, _⟩ => show 0 + 1 * r.val = r.val; omega
  | ⟨3, _⟩ => show 0 + 1 * c.val = c.val; omega

theorem emb_rk (h : Fin 16) (j : Fin 1024) (c : Fin 64) :
    (rk h).emb (ix4 (0 : Fin 1) (0 : Fin 1) j c) = ix4 (0 : Fin 1) h j c := by
  funext a; apply Fin.ext
  match a with
  | ⟨0, _⟩ => rfl
  | ⟨1, _⟩ => show h.val + 1 * 0 = h.val; omega
  | ⟨2, _⟩ => show 0 + 1 * j.val = j.val; omega
  | ⟨3, _⟩ => show 0 + 1 * c.val = c.val; omega

theorem emb_rb (h : Fin 16) (r : Fin 128) (j : Fin 1024) :
    (rb h).emb (ix4 (0 : Fin 1) r j (0 : Fin 1)) = ix4 (0 : Fin 1) r j h := by
  funext a; apply Fin.ext
  match a with
  | ⟨0, _⟩ => rfl
  | ⟨1, _⟩ => show 0 + 1 * r.val = r.val; omega
  | ⟨2, _⟩ => show 0 + 1 * j.val = j.val; omega
  | ⟨3, _⟩ => show h.val + 1 * 0 = h.val; omega

theorem emb_ra (h : Fin 16) (j : Fin 1024) (r : Fin 128) :
    (ra h).emb (ix4 (0 : Fin 1) j (0 : Fin 1) r) = ix4 (0 : Fin 1) j h r := by
  funext a; apply Fin.ext
  match a with
  | ⟨0, _⟩ => rfl
  | ⟨1, _⟩ => show 0 + 1 * j.val = j.val; omega
  | ⟨2, _⟩ => show h.val + 1 * 0 = h.val; omega
  | ⟨3, _⟩ => show 0 + 1 * r.val = r.val; omega

variable (x0 : Vec Ideal S1x16x128x64 .bf16) (x1 x2 : Vec Ideal S1x16x1024x64 .bf16) (x3 : Vec Ideal S1x128x1024x16 .f32)

/-- Head h's query tile [128,64], transposed keys [64,1024], values [1024,64] and bias tile [128,1024]. -/
def qT (h : Fin 16) : FVec Ideal S128x64 .bf16 := k1_pay14 (View.ld x0 (rq h))
def kT (h : Fin 16) : FVec Ideal S64x1024 .bf16 := k1_pay17 (View.ld x1 (rk h))
def vT (h : Fin 16) : FVec Ideal S1024x64 .bf16 := k1_pay15 (View.ld x2 (rk h))
def bT (h : Fin 16) : FVec Ideal S128x1024 .f32 := k1_pay16 (View.ld x3 (rb h))

theorem qT_apply (h : Fin 16) (r : Fin 128) (c : Fin 64) : qT x0 h (ix2 r c) = x0 (ix4 (0 : Fin 1) h r c) := by
  show shapeCast S128x64 (View.ld x0 (rq h)) shapeCasts_S1x1x128x64_S128x64 (ix2 r c) = _
  refine (shapeCast_apply (View.ld x0 (rq h)) shapeCasts_S1x1x128x64_S128x64 (ix2 r c) (ix4 (0 : Fin 1) (0 : Fin 1) r c) ?_).trans
    (show x0 ((rq h).emb (ix4 (0 : Fin 1) (0 : Fin 1) r c)) = _ from congrArg x0 (emb_rq h r c))
  rw [Shape.rowMajor_val_two, Shape.rowMajor_val_four]
  show ((0 * 1 + 0) * 128 + r.val) * 64 + c.val = r.val * 64 + c.val
  omega

theorem vT_apply (h : Fin 16) (j : Fin 1024) (c : Fin 64) : vT x2 h (ix2 j c) = x2 (ix4 (0 : Fin 1) h j c) := by
  show shapeCast S1024x64 (View.ld x2 (rk h)) shapeCasts_S1x1x1024x64_S1024x64 (ix2 j c) = _
  refine (shapeCast_apply (View.ld x2 (rk h)) shapeCasts_S1x1x1024x64_S1024x64 (ix2 j c) (ix4 (0 : Fin 1) (0 : Fin 1) j c) ?_).trans
    (show x2 ((rk h).emb (ix4 (0 : Fin 1) (0 : Fin 1) j c)) = _ from congrArg x2 (emb_rk h j c))
  rw [Shape.rowMajor_val_two, Shape.rowMajor_val_four]
  show ((0 * 1 + 0) * 1024 + j.val) * 64 + c.val = j.val * 64 + c.val
  omega

theorem kT_apply (h : Fin 16) (c : Fin 64) (j : Fin 1024) : kT x1 h (ix2 c j) = x1 (ix4 (0 : Fin 1) h j c) := by
  show transpose S64x1024 [1, 0] (shapeCast S1024x64 (View.ld x1 (rk h)) shapeCasts_S1x1x1024x64_S1024x64)
      transposes_S1024x64_p1_0_S64x1024 (ix2 c j) = _
  refine (transpose_apply [1, 0] (shapeCast S1024x64 (View.ld x1 (rk h)) shapeCasts_S1x1x1024x64_S1024x64)
    transposes_S1024x64_p1_0_S64x1024 (ix2 c j) (ix2 j c) ?_).trans ?_
  · intro b
    match b with
    | ⟨0, _⟩ => rfl
    | ⟨1, _⟩ => rfl
  · refine (shapeCast_apply (View.ld x1 (rk h)) shapeCasts_S1x1x1024x64_S1024x64 (ix2 j c) (ix4 (0 : Fin 1) (0 : Fin 1) j c) ?_).trans
      (show x1 ((rk h).emb (ix4 (0 : Fin 1) (0 : Fin 1) j c)) = _ from congrArg x1 (emb_rk h j c))
    rw [Shape.rowMajor_val_two, Shape.rowMajor_val_four]
    show ((0 * 1 + 0) * 1024 + j.val) * 64 + c.val = j.val * 64 + c.val
    omega

theorem bT_apply (h : Fin 16) (r : Fin 128) (j : Fin 1024) : bT x3 h (ix2 r j) = x3 (ix4 (0 : Fin 1) r j h) := by
  show shapeCast S128x1024 (View.ld x3 (rb h)) shapeCasts_S1x128x1024x1_S128x1024 (ix2 r j) = _
  refine (shapeCast_apply (View.ld x3 (rb h)) shapeCasts_S1x128x1024x1_S128x1024 (ix2 r j) (ix4 (0 : Fin 1) r j (0 : Fin 1)) ?_).trans
    (show x3 ((rb h).emb (ix4 (0 : Fin 1) r j (0 : Fin 1))) = _ from congrArg x3 (emb_rb h r j))
  rw [Shape.rowMajor_val_two, Shape.rowMajor_val_four]
  show ((0 * 128 + r.val) * 1024 + j.val) * 1 + 0 = r.val * 1024 + j.val
  omega

/-- Head h's context tile [128,64] and attention slab [1,1024,1,128]. -/
def headCtx (h : Fin 16) : FVec Ideal S128x64 .f32 := k1_pay19 (qT x0 h) (vT x2 h) (bT x3 h) (kT x1 h)
def headSlab (h : Fin 16) : FVec Ideal S1x1024x1x128 .f32 := k1_pay20 (qT x0 h) (bT x3 h) (kT x1 h)

/-- Row r of head h, as the row-level functions see it: the block's entries at the head's coordinate. -/
abbrev qrow (h : Fin 16) (r : Fin 128) : Fin 64 → EReal := fun c => x0 (ix4 (0 : Fin 1) h r c)
abbrev kmat (h : Fin 16) : Fin 1024 → Fin 64 → EReal := fun j c => x1 (ix4 (0 : Fin 1) h j c)
abbrev vmat (h : Fin 16) : Fin 1024 → Fin 64 → EReal := fun j c => x2 (ix4 (0 : Fin 1) h j c)
abbrev brow (h : Fin 16) (r : Fin 128) : Fin 1024 → EReal := fun j => x3 (ix4 (0 : Fin 1) r j h)

theorem rows_eq (h : Fin 16) (r : Fin 128) :
    (fun c => qT x0 h (ix2 r c)) = qrow x0 h r ∧ (fun j c => kT x1 h (ix2 c j)) = kmat x1 h
      ∧ (fun j => bT x3 h (ix2 r j)) = brow x3 h r ∧ (fun j c => vT x2 h (ix2 j c)) = vmat x2 h :=
  ⟨funext fun c => qT_apply x0 h r c, funext fun j => funext fun c => kT_apply x1 h c j,
    funext fun j => bT_apply x3 h r j, funext fun j => funext fun c => vT_apply x2 h j c⟩

theorem headCtx_apply (h : Fin 16) (r : Fin 128) (c : Fin 64) :
    headCtx x0 x1 x2 x3 h (ix2 r c) = rctx (qrow x0 h r) (kmat x1 h) (brow x3 h r) (vmat x2 h) c := by
  obtain ⟨e1, e2, e3, e4⟩ := rows_eq x0 x1 x2 x3 h r
  rw [← e1, ← e2, ← e3, ← e4]
  exact ctx_apply (qT x0 h) (vT x2 h) (bT x3 h) (kT x1 h) r c

theorem headSlab_apply (h : Fin 16) (j : Fin 1024) (r : Fin 128) :
    headSlab x0 x1 x3 h (ix4 (0 : Fin 1) j (0 : Fin 1) r) = rprob (qrow x0 h r) (kmat x1 h) (brow x3 h r) j := by
  obtain ⟨e1, e2, e3, -⟩ := rows_eq x0 x1 x1 x3 h r
  rw [← e1, ← e2, ← e3]
  exact slab_apply (qT x0 h) (bT x3 h) (kT x1 h) j r

end Cert.KernelIdeal.Loads

end
-- ==== Proof.Block.lean ====
/-
  What the second kernel's body leaves in its two output blocks, read at an index, in terms of the entries of its nine
  input blocks. The attention block [1,1024,16,128] is written as sixteen slabs, one per head, that tile it: its entry
  (0, j, h, r) is the softmax weight of key j for query row r in head h. The output block [1,128,1024] is written once:
  the sixteen heads' context tiles side by side (feature e belongs to head e / 64, column e % 64), times the gate, times
  the transposed output weight, plus the output bias row.
-/
import proofs.«175424_j3453153706649_2_alg».proof.Proof.Gen.KernelIdeal.Frame
import proofs.«175424_j3453153706649_2_alg».proof.Proof.Loads

set_option maxRecDepth 16384

noncomputable section

namespace Cert.KernelIdeal.Block

open Idealize.ShloMosaic Idealize.ShloMosaic.ValueIdx Cert.KernelIdeal Cert.KernelIdeal.Gen Cert.Rows
  Cert.KernelIdeal.HeadAt Cert.KernelIdeal.Loads

/-- A row [1,1024] repeated down 128 sublanes reads, at (r, f), the row's entry f. -/
theorem rowBcast_apply (v : FVec Ideal S1x1024 .f32) (r : Fin 128) (f : Fin 1024) :
    broadcastTo S128x1024 v broadcasts_S1x1024_S128x1024 (ix2 r f) = v (ix2 (0 : Fin 1) f) := by
  refine broadcastTo_apply v broadcasts_S1x1024_S128x1024 (ix2 r f) (ix2 (0 : Fin 1) f) fun a => ?_
  match a with
  | ⟨0, _⟩ =>
    show (0 : ℕ) = if (1 : ℕ) = 1 then 0 else r.val
    rw [if_pos rfl]
  | ⟨1, _⟩ =>
    show f.val = if (1024 : ℕ) = 1 then 0 else f.val
    rw [if_neg (by decide)]

/-- The activation block [1,128,1024] recast as a tile [128,1024]. -/
theorem tile_apply (v : Vec Ideal S1x128x1024 .f32) (r : Fin 128) (e : Fin 1024) :
    shapeCast S128x1024 v shapeCasts_S1x128x1024_S128x1024 (ix2 r e) = v (ix3 (0 : Fin 1) r e) := by
  refine shapeCast_apply v shapeCasts_S1x128x1024_S128x1024 (ix2 r e) (ix3 (0 : Fin 1) r e) ?_
  rw [Shape.rowMajor_val_two, Shape.rowMajor_val_three]
  show (0 * 128 + r.val) * 1024 + e.val = r.val * 1024 + e.val
  omega

/-- A tile times a transposed square weight, into a zero accumulator: entry (r, f) is Σ_e A[r,e] · W[f,e]. -/
theorem timesTransposed_apply (A : FVec Ideal S128x1024 .bf16) (W : Vec Ideal S1024x1024 .f32) (r : Fin 128) (f : Fin 1024) :
    matmul dot_S128x1024_S1024x1024_S128x1024_1_0_0_1_n_n none A
        (transpose S1024x1024 [1, 0] (truncf .bf16 W bitsLt_bf16_f32) transposes_S1024x1024_p1_0_S1024x1024)
        (constant S128x1024 .f32 0x00000000#32) (ix2 r f)
      = ∑ e : Fin 1024, A (ix2 r e) * W (ix2 f e) :=
  (Cert.LibPlainDot.matmul_zero_plain 128 1024 1024 none A _ (ix2 r f)).trans
    (Finset.sum_congr rfl fun e _ => by
      show A (ix2 r e) * transpose S1024x1024 [1, 0] (truncf .bf16 W bitsLt_bf16_f32) transposes_S1024x1024_p1_0_S1024x1024 (ix2 e f)
        = A (ix2 r e) * W (ix2 f e)
      exact congrArg (A (ix2 r e) * ·)
        (transpose_apply (α := EReal) (s := S1024x1024) (t := S1024x1024) [1, 0] (fun i => W i)
          transposes_S1024x1024_p1_0_S1024x1024 (ix2 e f) (ix2 f e)
          (fun b => match b with
            | ⟨0, _⟩ => rfl
            | ⟨1, _⟩ => rfl)))

/-- Sixteen [128,64] tiles side by side: column e of the result is column e % 64 of tile e / 64. -/
theorem sideBySide_apply (O : Fin 16 → FVec Ideal S128x64 .f32) (r : Fin 128) (e : Fin 1024) :
    concatenate S128x1024 1 [⟨S128x64, O 0⟩, ⟨S128x64, O 1⟩, ⟨S128x64, O 2⟩, ⟨S128x64, O 3⟩, ⟨S128x64, O 4⟩, ⟨S128x64, O 5⟩, ⟨S128x64, O 6⟩, ⟨S128x64, O 7⟩, ⟨S128x64, O 8⟩, ⟨S128x64, O 9⟩, ⟨S128x64, O 10⟩, ⟨S128x64, O 11⟩, ⟨S128x64, O 12⟩, ⟨S128x64, O 13⟩, ⟨S128x64, O 14⟩, ⟨S128x64, O 15⟩]
        concatenates_S128x64_S128x64_S128x64_S128x64_S128x64_S128x64_S128x64_S128x64_S128x64_S128x64_S128x64_S128x64_S128x64_S128x64_S128x64_S128x64_S128x1024_d1
        (ix2 r e)
      = O (Cert.Spec.headOf e) (ix2 r (Cert.Spec.colOf e)) := by
  have key : ∀ (L : List ((s : Shape) × (s.Idx → EReal)))
      (hL : L = List.ofFn fun n : Fin 16 => (⟨S128x64, O n⟩ : (s : Shape) × (s.Idx → EReal)))
      (hc : Shape.Concatenates (L.map (·.1)) S128x1024 1),
      concatenate S128x1024 1 L hc (ix2 r e) = O (Cert.Spec.headOf e) (ix2 r (Cert.Spec.colOf e)) := by
    intro L hL hc
    subst hL
    exact concatenate_ofFn_apply (t := S128x1024) (s₁ := S128x64) (1 : Fin 2) O hc rfl 64 rfl (ix2 r e) (Cert.Spec.headOf e) rfl (ix2 r (Cert.Spec.colOf e)) rfl
      (fun b hb => match b, hb with
        | ⟨0, _⟩, _ => rfl
        | ⟨1, _⟩, hb => absurd (Fin.ext rfl) hb)
  exact key _ rfl _

/-- The gated context tile: the logistic function of x · wgᵀ + bg, times the heads' context tiles side by side. -/
def gatedTile (O : Fin 16 → FVec Ideal S128x64 .f32) (xb : Vec Ideal S1x128x1024 .f32) (wg : Vec Ideal S1024x1024 .f32)
    (bg : Vec Ideal S1x1024 .f32) : FVec Ideal S128x1024 .f32 :=
  mulf (logistic (addf (matmul dot_S128x1024_S1024x1024_S128x1024_1_0_0_1_n_n none
        (truncf .bf16 (shapeCast S128x1024 xb shapeCasts_S1x128x1024_S128x1024) bitsLt_bf16_f32)
        (transpose S1024x1024 [1, 0] (truncf .bf16 wg bitsLt_bf16_f32) transposes_S1024x1024_p1_0_S1024x1024)
        (constant S128x1024 .f32 0x00000000#32))
      (broadcastTo S128x1024 (shapeCast S1x1024 bg shapeCasts_S1x1024_S1x1024) broadcasts_S1x1024_S128x1024)))
    (concatenate S128x1024 1 [⟨S128x64, O 0⟩, ⟨S128x64, O 1⟩, ⟨S128x64, O 2⟩, ⟨S128x64, O 3⟩, ⟨S128x64, O 4⟩, ⟨S128x64, O 5⟩, ⟨S128x64, O 6⟩, ⟨S128x64, O 7⟩, ⟨S128x64, O 8⟩, ⟨S128x64, O 9⟩, ⟨S128x64, O 10⟩, ⟨S128x64, O 11⟩, ⟨S128x64, O 12⟩, ⟨S128x64, O 13⟩, ⟨S128x64, O 14⟩, ⟨S128x64, O 15⟩]
      concatenates_S128x64_S128x64_S128x64_S128x64_S128x64_S128x64_S128x64_S128x64_S128x64_S128x64_S128x64_S128x64_S128x64_S128x64_S128x64_S128x64_S128x1024_d1)

theorem gatedTile_apply (O : Fin 16 → FVec Ideal S128x64 .f32) (xb : Vec Ideal S1x128x1024 .f32) (wg : Vec Ideal S1024x1024 .f32)
    (bg : Vec Ideal S1x1024 .f32) (r : Fin 128) (e : Fin 1024) :
    gatedTile O xb wg bg (ix2 r e)
      = rgate (fun e' => xb (ix3 (0 : Fin 1) r e')) (fun f e' => wg (ix2 f e')) (fun f => bg (ix2 (0 : Fin 1) f)) e
          * O (Cert.Spec.headOf e) (ix2 r (Cert.Spec.colOf e)) := by
  have h1 := (timesTransposed_apply (truncf .bf16 (shapeCast S128x1024 xb shapeCasts_S1x128x1024_S128x1024) bitsLt_bf16_f32) wg r e).trans
    (Finset.sum_congr rfl fun e' _ => congrArg (· * wg (ix2 e e')) (tile_apply xb r e'))
  have h2 := (rowBcast_apply (shapeCast S1x1024 bg shapeCasts_S1x1024_S1x1024) r e).trans
    (congrFun (shapeCast_self bg shapeCasts_S1x1024_S1x1024) (ix2 (0 : Fin 1) e))
  exact congrArg₂ (fun a b : EReal => Ideal.logistic a * b) (congrArg₂ (fun a b : EReal => a + b) h1 h2) (sideBySide_apply O r e)

/-- The stored output tile: the gated context times woᵀ plus the bias row, recast as a block [1,128,1024]. -/
theorem outTile_apply (P : FVec Ideal S128x1024 .f32) (wo : Vec Ideal S1024x1024 .f32) (bo : Vec Ideal S1x1024 .f32)
    (r : Fin 128) (f : Fin 1024) :
    k1_pay1 (F := Ideal) P wo bo (ix3 (0 : Fin 1) r f) = (∑ e : Fin 1024, P (ix2 r e) * wo (ix2 f e)) + bo (ix2 (0 : Fin 1) f) := by
  show shapeCast S1x128x1024 (addf (matmul dot_S128x1024_S1024x1024_S128x1024_1_0_0_1_n_n none (truncf .bf16 P bitsLt_bf16_f32)
        (transpose S1024x1024 [1, 0] (truncf .bf16 wo bitsLt_bf16_f32) transposes_S1024x1024_p1_0_S1024x1024)
        (constant S128x1024 .f32 0x00000000#32))
      (broadcastTo S128x1024 (shapeCast S1x1024 bo shapeCasts_S1x1024_S1x1024) broadcasts_S1x1024_S128x1024))
    shapeCasts_S128x1024_S1x128x1024 (ix3 (0 : Fin 1) r f) = _
  refine (shapeCast_apply _ shapeCasts_S128x1024_S1x128x1024 (ix3 (0 : Fin 1) r f) (ix2 r f) ?_).trans ?_
  · rw [Shape.rowMajor_val_two, Shape.rowMajor_val_three]
    show r.val * 1024 + f.val = (0 * 128 + r.val) * 1024 + f.val
    omega
  · have h1 := timesTransposed_apply (truncf .bf16 P bitsLt_bf16_f32) wo r f
    have h2 := (rowBcast_apply (shapeCast S1x1024 bo shapeCasts_S1x1024_S1x1024) r f).trans
      (congrFun (shapeCast_self bo shapeCasts_S1x1024_S1x1024) (ix2 (0 : Fin 1) f))
    exact congrArg₂ (fun a b : EReal => a + b) h1 h2

variable (x0 : Vec Ideal S1x16x128x64 .bf16) (x1 x2 : Vec Ideal S1x16x1024x64 .bf16) (x3 : Vec Ideal S1x128x1024x16 .f32)
  (x4 : Vec Ideal S1x128x1024 .f32) (x5 : Vec Ideal S1024x1024 .f32) (x6 : Vec Ideal S1x1024 .f32)
  (x7 : Vec Ideal S1024x1024 .f32) (x8 : Vec Ideal S1x1024 .f32)

/-- The attention block as one function of its index (0, j, h, r). -/
def attnBlk : S1x1024x16x128.Idx → EReal :=
  fun y => rprob (qrow x0 (y 2) (y 3)) (kmat x1 (y 2)) (brow x3 (y 2) (y 3)) (y 1)

/-- Head h's slab is the attention block restricted to the head's rectangle. -/
theorem headSlab_piece (h : Fin 16) (x : S1x1024x1x128.Idx) :
    headSlab x0 x1 x3 h x = attnBlk x0 x1 x3 ((ra h).emb x) := by
  obtain ⟨u, j, w, r, rfl⟩ : ∃ (u : Fin 1) (j : Fin 1024) (w : Fin 1) (r : Fin 128), x = ix4 u j w r :=
    ⟨x 0, x 1, x 2, x 3, eq_ix4 x⟩
  obtain rfl : u = 0 := Subsingleton.elim _ _
  obtain rfl : w = 0 := Subsingleton.elim _ _
  rw [emb_ra]
  exact headSlab_apply x0 x1 x3 h j r

/-- The attention block after the body: entry (0, j, h, r) is row r's softmax weight of key j in head h. -/
theorem out10_apply (j : Fin 1024) (h : Fin 16) (r : Fin 128) :
    out1_10 (F := Ideal) x0 x1 x2 x3 x4 x5 x6 x7 x8 (ix4 (0 : Fin 1) j h r)
      = rprob (qrow x0 h r) (kmat x1 h) (brow x3 h r) j := by
  unfold out1_10
  refine View.canon_apply_of_pieces (Val := Elt Ideal) (attnBlk x0 x1 x3) _ ?_ (ix4 (0 : Fin 1) j h r) (cover1_10 _ _ _ _ _ _ _ _ _ _ _ _ _ _ _ _ _)
  intro p hp
  simp only [List.mem_cons, List.not_mem_nil, or_false] at hp
  rcases hp with rfl | rfl | rfl | rfl | rfl | rfl | rfl | rfl | rfl | rfl | rfl | rfl | rfl | rfl | rfl | rfl
  · exact headSlab_piece x0 x1 x3 15
  · exact headSlab_piece x0 x1 x3 14
  · exact headSlab_piece x0 x1 x3 13
  · exact headSlab_piece x0 x1 x3 12
  · exact headSlab_piece x0 x1 x3 11
  · exact headSlab_piece x0 x1 x3 10
  · exact headSlab_piece x0 x1 x3 9
  · exact headSlab_piece x0 x1 x3 8
  · exact headSlab_piece x0 x1 x3 7
  · exact headSlab_piece x0 x1 x3 6
  · exact headSlab_piece x0 x1 x3 5
  · exact headSlab_piece x0 x1 x3 4
  · exact headSlab_piece x0 x1 x3 3
  · exact headSlab_piece x0 x1 x3 2
  · exact headSlab_piece x0 x1 x3 1
  · exact headSlab_piece x0 x1 x3 0

/-- The body's one store to the output block, with the sixteen heads' context tiles named uniformly. -/
theorem out9_eq :
    out1_9 (F := Ideal) x0 x1 x2 x3 x4 x5 x6 x7 x8
      = View.canon [⟨r1_64, k1_pay1 (gatedTile (fun n => headCtx x0 x1 x2 x3 n) (View.ld x4 r1_64) (View.ld x5 r1_65) (View.ld x6 r1_66))
          (View.ld x7 r1_65) (View.ld x8 r1_66)⟩] := rfl

/-- The output block after the body: entry (0, r, f). -/
theorem out9_apply (r : Fin 128) (f : Fin 1024) :
    out1_9 (F := Ideal) x0 x1 x2 x3 x4 x5 x6 x7 x8 (ix3 (0 : Fin 1) r f)
      = ry (fun e => rgate (fun e' => x4 (ix3 (0 : Fin 1) r e')) (fun f e' => x5 (ix2 f e')) (fun f => x6 (ix2 (0 : Fin 1) f)) e)
          (fun h c => rctx (qrow x0 h r) (kmat x1 h) (brow x3 h r) (vmat x2 h) c)
          (fun f e => x7 (ix2 f e)) (fun f => x8 (ix2 (0 : Fin 1) f)) f := by
  have hz : (![0, 0, 0] : Fin 3 → ℕ) = fun _ => 0 := by
    funext a
    match a with
    | ⟨0, _⟩ => rfl
    | ⟨1, _⟩ => rfl
    | ⟨2, _⟩ => rfl
  have hz2 : (![0, 0] : Fin 2 → ℕ) = fun _ => 0 := by
    funext a
    match a with
    | ⟨0, _⟩ => rfl
    | ⟨1, _⟩ => rfl
  have e4 : View.ld x4 r1_64 = x4 := View.ld_unit_zero (S := S1x128x1024) hz _ x4
  have e5 : View.ld x5 r1_65 = x5 := View.ld_unit_zero (S := S1024x1024) hz2 _ x5
  have e6 : View.ld x6 r1_66 = x6 := View.ld_unit_zero (S := S1x1024) hz2 _ x6
  have e7 : View.ld x7 r1_65 = x7 := View.ld_unit_zero (S := S1024x1024) hz2 _ x7
  have e8 : View.ld x8 r1_66 = x8 := View.ld_unit_zero (S := S1x1024) hz2 _ x8
  rw [out9_eq, View.canon_unit_zero hz, e4, e5, e6, e7, e8, outTile_apply]
  refine congrArg₂ (fun a b : EReal => a + b) (Finset.sum_congr rfl fun e _ => ?_) rfl
  refine congrArg (· * x7 (ix2 f e)) ?_
  rw [gatedTile_apply]
  exact congrArg (rgate (fun e' => x4 (ix3 (0 : Fin 1) r e')) (fun f e' => x5 (ix2 f e')) (fun f => x6 (ix2 (0 : Fin 1) f)) e * ·)
    (headCtx_apply x0 x1 x2 x3 (Cert.Spec.headOf e) r (Cert.Spec.colOf e))

end Cert.KernelIdeal.Block

end
-- ==== Proof.AttnValue.lean ====
/-
  The second kernel region's two output arrays, as whole arrays of the arrays the region finds. The grid is
  2 batches x 8 query tiles: point t is batch t / 8, tile t % 8. At that point the query block is rows
  128 (t % 8) … 128 (t % 8) + 127 of every head of batch t / 8; the key and value blocks are the whole of that batch;
  the bias and activation blocks are the same 128 rows of the batch; the two weights and the two bias rows are whole.
  The point writes rows 128 (t % 8) … of the batch's output, and columns 128 (t % 8) … of the batch's attention
  weights (indexed batch, key, head, query). The sixteen points' blocks tile each output array, so each array is one
  function of the entry arrays, index by index: the row-level softmax, context, gate and projection of the rows
  the arrays hold.
-/
import proofs.«175424_j3453153706649_2_alg».proof.Proof.Block
import Idealize.ShloMosaic.Lib.Pipeline.Value

set_option maxRecDepth 16384

noncomputable section

namespace Cert.KernelIdeal.AttnValue

open Idealize.ShloMosaic Idealize.ShloMosaic.TcCoe Idealize.ShloMosaic.ValueIdx Idealize.SL.Sem
open Cert.KernelIdeal Cert.KernelIdeal.Gen Cert.Rows Cert.KernelIdeal.Loads Cert.KernelIdeal.Block
open Idealize.ShloMosaic.Pipeline (Dat)

/-- Row r of query tile qi is row 128 qi + r of the sequence. -/
def qpos (qi : Fin 8) (r : Fin 128) : Fin 1024 := ⟨128 * qi.val + r.val, by omega⟩

/-- The output array as a function of the nine arrays the region reads (the two bias vectors as rows [1,1024]). -/
def yArr (q k v : Cert.Spec.Heads) (bias : Cert.Spec.Bias) (x : Cert.Spec.Act) (wg : Cert.Spec.WSq)
    (bgr : S1x1024.Idx → EReal) (wo : Cert.Spec.WSq) (bor : S1x1024.Idx → EReal) : Cert.Spec.Act := fun i =>
  ry (fun e => rgate (fun e' => x (ix3 (i 0) (i 1) e')) (fun f e' => wg (ix2 f e')) (fun f => bgr (ix2 (0 : Fin 1) f)) e)
    (fun h c => rctx (fun c => q (ix4 (i 0) h (i 1) c)) (fun j c => k (ix4 (i 0) h j c)) (fun j => bias (ix4 (i 0) (i 1) j h))
      (fun j c => v (ix4 (i 0) h j c)) c)
    (fun f e => wo (ix2 f e)) (fun f => bor (ix2 (0 : Fin 1) f)) (i 2)

/-- The body's output block is block (bb, qi) of that array, when its input blocks are the matching blocks. -/
theorem blockY_eq (x0 : Vec Ideal S1x16x128x64 .bf16) (x1 x2 : Vec Ideal S1x16x1024x64 .bf16) (x3 : Vec Ideal S1x128x1024x16 .f32)
    (x4 : Vec Ideal S1x128x1024 .f32) (x5 : Vec Ideal S1024x1024 .f32) (x6 : Vec Ideal S1x1024 .f32)
    (x7 : Vec Ideal S1024x1024 .f32) (x8 : Vec Ideal S1x1024 .f32)
    (q k v : Cert.Spec.Heads) (bias : Cert.Spec.Bias) (x : Cert.Spec.Act) (wg : Cert.Spec.WSq)
    (bgr : S1x1024.Idx → EReal) (wo : Cert.Spec.WSq) (bor : S1x1024.Idx → EReal) (bb : Fin 2) (qi : Fin 8)
    (h0 : ∀ (h : Fin 16) (r : Fin 128) (c : Fin 64), x0 (ix4 (0 : Fin 1) h r c) = q (ix4 bb h (qpos qi r) c))
    (h1 : ∀ (h : Fin 16) (j : Fin 1024) (c : Fin 64), x1 (ix4 (0 : Fin 1) h j c) = k (ix4 bb h j c))
    (h2 : ∀ (h : Fin 16) (j : Fin 1024) (c : Fin 64), x2 (ix4 (0 : Fin 1) h j c) = v (ix4 bb h j c))
    (h3 : ∀ (r : Fin 128) (j : Fin 1024) (h : Fin 16), x3 (ix4 (0 : Fin 1) r j h) = bias (ix4 bb (qpos qi r) j h))
    (h4 : ∀ (r : Fin 128) (e : Fin 1024), x4 (ix3 (0 : Fin 1) r e) = x (ix3 bb (qpos qi r) e))
    (h5 : ∀ (f e : Fin 1024), x5 (ix2 f e) = wg (ix2 f e))
    (h6 : ∀ f : Fin 1024, x6 (ix2 (0 : Fin 1) f) = bgr (ix2 (0 : Fin 1) f))
    (h7 : ∀ (f e : Fin 1024), x7 (ix2 f e) = wo (ix2 f e))
    (h8 : ∀ f : Fin 1024, x8 (ix2 (0 : Fin 1) f) = bor (ix2 (0 : Fin 1) f))
    (r : Fin 128) (f : Fin 1024) :
    out1_9 (F := Ideal) x0 x1 x2 x3 x4 x5 x6 x7 x8 (ix3 (0 : Fin 1) r f)
      = yArr q k v bias x wg bgr wo bor (ix3 bb (qpos qi r) f) := by
  rw [out9_apply]
  have e0 : ∀ h : Fin 16, qrow x0 h r = fun c => q (ix4 bb h (qpos qi r) c) := fun h => funext fun c => h0 h r c
  have e1 : ∀ h : Fin 16, kmat x1 h = fun j c => k (ix4 bb h j c) := fun h => funext fun j => funext fun c => h1 h j c
  have e2 : ∀ h : Fin 16, vmat x2 h = fun j c => v (ix4 bb h j c) := fun h => funext fun j => funext fun c => h2 h j c
  have e3 : ∀ h : Fin 16, brow x3 h r = fun j => bias (ix4 bb (qpos qi r) j h) := fun h => funext fun j => h3 r j h
  have e4 : (fun e' => x4 (ix3 (0 : Fin 1) r e')) = fun e' => x (ix3 bb (qpos qi r) e') := funext fun e' => h4 r e'
  have e5 : (fun f e' => x5 (ix2 f e')) = fun f e' => wg (ix2 f e') := funext fun f => funext fun e' => h5 f e'
  have e6 : (fun f => x6 (ix2 (0 : Fin 1) f)) = fun f => bgr (ix2 (0 : Fin 1) f) := funext fun f => h6 f
  have e7 : (fun f e => x7 (ix2 f e)) = fun f e => wo (ix2 f e) := funext fun f => funext fun e => h7 f e
  have e8 : (fun f => x8 (ix2 (0 : Fin 1) f)) = fun f => bor (ix2 (0 : Fin 1) f) := funext fun f => h8 f
  rw [e4, e5, e6, e7, e8]
  simp only [e0, e1, e2, e3]
  rfl

/-- The body's attention block is block (bb, qi) of the attention weights of the matching arrays. -/
theorem blockA_eq (x0 : Vec Ideal S1x16x128x64 .bf16) (x1 x2 : Vec Ideal S1x16x1024x64 .bf16) (x3 : Vec Ideal S1x128x1024x16 .f32)
    (x4 : Vec Ideal S1x128x1024 .f32) (x5 : Vec Ideal S1024x1024 .f32) (x6 : Vec Ideal S1x1024 .f32)
    (x7 : Vec Ideal S1024x1024 .f32) (x8 : Vec Ideal S1x1024 .f32)
    (q k : Cert.Spec.Heads) (bias : Cert.Spec.Bias) (bb : Fin 2) (qi : Fin 8)
    (h0 : ∀ (h : Fin 16) (r : Fin 128) (c : Fin 64), x0 (ix4 (0 : Fin 1) h r c) = q (ix4 bb h (qpos qi r) c))
    (h1 : ∀ (h : Fin 16) (j : Fin 1024) (c : Fin 64), x1 (ix4 (0 : Fin 1) h j c) = k (ix4 bb h j c))
    (h3 : ∀ (r : Fin 128) (j : Fin 1024) (h : Fin 16), x3 (ix4 (0 : Fin 1) r j h) = bias (ix4 bb (qpos qi r) j h))
    (j : Fin 1024) (h : Fin 16) (r : Fin 128) :
    out1_10 (F := Ideal) x0 x1 x2 x3 x4 x5 x6 x7 x8 (ix4 (0 : Fin 1) j h r)
      = Cert.Spec.Attn q k bias (ix4 bb j h (qpos qi r)) := by
  rw [out10_apply]
  have e0 : qrow x0 h r = fun c => q (ix4 bb h (qpos qi r) c) := funext fun c => h0 h r c
  have e1 : kmat x1 h = fun j c => k (ix4 bb h j c) := funext fun j => funext fun c => h1 h j c
  have e3 : brow x3 h r = fun j => bias (ix4 bb (qpos qi r) j h) := funext fun j => h3 r j h
  rw [e0, e1, e3]
  rfl

/-! ## The printed index maps, decided over the sixteen points -/

theorem idx1_0 : ∀ t : Fin cfg1.N, win1_0.index t (0 : Fin 4) = t.val / 8 ∧ win1_0.index t (1 : Fin 4) = 0
    ∧ win1_0.index t (2 : Fin 4) = t.val % 8 ∧ win1_0.index t (3 : Fin 4) = 0 :=
  (by decide +kernel : ∀ t : Fin grid1.N, _)
theorem idx1_1 : ∀ t : Fin cfg1.N, win1_1.index t (0 : Fin 4) = t.val / 8 ∧ win1_1.index t (1 : Fin 4) = 0
    ∧ win1_1.index t (2 : Fin 4) = 0 ∧ win1_1.index t (3 : Fin 4) = 0 :=
  (by decide +kernel : ∀ t : Fin grid1.N, _)
theorem idx1_2 : ∀ t : Fin cfg1.N, win1_2.index t (0 : Fin 4) = t.val / 8 ∧ win1_2.index t (1 : Fin 4) = 0
    ∧ win1_2.index t (2 : Fin 4) = 0 ∧ win1_2.index t (3 : Fin 4) = 0 :=
  (by decide +kernel : ∀ t : Fin grid1.N, _)
theorem idx1_3 : ∀ t : Fin cfg1.N, win1_3.index t (0 : Fin 4) = t.val / 8 ∧ win1_3.index t (1 : Fin 4) = t.val % 8
    ∧ win1_3.index t (2 : Fin 4) = 0 ∧ win1_3.index t (3 : Fin 4) = 0 :=
  (by decide +kernel : ∀ t : Fin grid1.N, _)
theorem idx1_4 : ∀ t : Fin cfg1.N, win1_4.index t (0 : Fin 3) = t.val / 8 ∧ win1_4.index t (1 : Fin 3) = t.val % 8
    ∧ win1_4.index t (2 : Fin 3) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 3) = t.val / 8 ∧ win1_9.index t (1 : Fin 3) = t.val % 8
    ∧ win1_9.index t (2 : Fin 3) = 0 :=
  (by decide +kernel : ∀ t : Fin grid1.N, _)
theorem idx1_10 : ∀ t : Fin cfg1.N, win1_10.index t (0 : Fin 4) = t.val / 8 ∧ win1_10.index t (1 : Fin 4) = 0
    ∧ win1_10.index t (2 : Fin 4) = 0 ∧ win1_10.index t (3 : Fin 4) = t.val % 8 :=
  (by decide +kernel : ∀ t : Fin grid1.N, _)

theorem lt16 (t : Fin cfg1.N) : t.val < 16 := by
  have hN : grid1.N = 16 := N_1
  have h : t.val < grid1.N := t.isLt
  omega

/-- The batch and the query tile of point t. -/
def bOf (t : Fin cfg1.N) : Fin 2 := ⟨t.val / 8, by have := lt16 t; omega⟩
def qOf (t : Fin cfg1.N) : Fin 8 := ⟨t.val % 8, by omega⟩

variable (V : (c : Dev nD) → (b : Ref sig .tc) → Buf (Elt Ideal) ((c : Thread nD τ).loc b))

/-! ## Each input window's block at point t, read off its array -/

theorem blk0_apply (c : Dev nD) (t : Fin cfg1.N) (h : Fin 16) (r : Fin 128) (cc : Fin 64) :
    (iblk1 V c 0 t : Vec Ideal S1x16x128x64 .bf16) (ix4 (0 : Fin 1) h r cc)
      = (V c main_v0_0 : S2x16x1024x64.Idx → EReal) (ix4 (bOf t) h (qpos (qOf t) r) cc) := by
  obtain ⟨e0, e1, e2, e3⟩ := idx1_0 t
  unfold iblk1
  rw [View.read_apply]
  show V c main_v0_0 _ = V c main_v0_0 _
  congr 1
  funext a
  apply Fin.ext
  match a with
  | ⟨0, _⟩ => show win1_0.index t (0 : Fin 4) * 1 + 1 * 0 = t.val / 8; rw [e0]; omega
  | ⟨1, _⟩ => show win1_0.index t (1 : Fin 4) * 16 + 1 * h.val = h.val; rw [e1]; omega
  | ⟨2, _⟩ => show win1_0.index t (2 : Fin 4) * 128 + 1 * r.val = 128 * (t.val % 8) + r.val; rw [e2]; omega
  | ⟨3, _⟩ => show win1_0.index t (3 : Fin 4) * 64 + 1 * cc.val = cc.val; rw [e3]; omega

theorem blk1_apply (c : Dev nD) (t : Fin cfg1.N) (h : Fin 16) (j : Fin 1024) (cc : Fin 64) :
    (iblk1 V c 1 t : Vec Ideal S1x16x1024x64 .bf16) (ix4 (0 : Fin 1) h j cc)
      = (V c main_v0_1 : S2x16x1024x64.Idx → EReal) (ix4 (bOf t) h j cc) := by
  obtain ⟨e0, e1, e2, e3⟩ := idx1_1 t
  unfold iblk1
  rw [View.read_apply]
  show V c main_v0_1 _ = V c main_v0_1 _
  congr 1
  funext a
  apply Fin.ext
  match a with
  | ⟨0, _⟩ => show win1_1.index t (0 : Fin 4) * 1 + 1 * 0 = t.val / 8; rw [e0]; omega
  | ⟨1, _⟩ => show win1_1.index t (1 : Fin 4) * 16 + 1 * h.val = h.val; rw [e1]; omega
  | ⟨2, _⟩ => show win1_1.index t (2 : Fin 4) * 1024 + 1 * j.val = j.val; rw [e2]; omega
  | ⟨3, _⟩ => show win1_1.index t (3 : Fin 4) * 64 + 1 * cc.val = cc.val; rw [e3]; omega

theorem blk2_apply (c : Dev nD) (t : Fin cfg1.N) (h : Fin 16) (j : Fin 1024) (cc : Fin 64) :
    (iblk1 V c 2 t : Vec Ideal S1x16x1024x64 .bf16) (ix4 (0 : Fin 1) h j cc)
      = (V c main_v0_2 : S2x16x1024x64.Idx → EReal) (ix4 (bOf t) h j cc) := by
  obtain ⟨e0, e1, e2, e3⟩ := idx1_2 t
  unfold iblk1
  rw [View.read_apply]
  show V c main_v0_2 _ = V c main_v0_2 _
  congr 1
  funext a
  apply Fin.ext
  match a with
  | ⟨0, _⟩ => show win1_2.index t (0 : Fin 4) * 1 + 1 * 0 = t.val / 8; rw [e0]; omega
  | ⟨1, _⟩ => show win1_2.index t (1 : Fin 4) * 16 + 1 * h.val = h.val; rw [e1]; omega
  | ⟨2, _⟩ => show win1_2.index t (2 : Fin 4) * 1024 + 1 * j.val = j.val; rw [e2]; omega
  | ⟨3, _⟩ => show win1_2.index t (3 : Fin 4) * 64 + 1 * cc.val = cc.val; rw [e3]; omega

theorem blk3_apply (c : Dev nD) (t : Fin cfg1.N) (r : Fin 128) (j : Fin 1024) (h : Fin 16) :
    (iblk1 V c 3 t : Vec Ideal S1x128x1024x16 .f32) (ix4 (0 : Fin 1) r j h)
      = (V c main_arg1 : S2x1024x1024x16.Idx → EReal) (ix4 (bOf t) (qpos (qOf t) r) j h) := by
  obtain ⟨e0, e1, e2, e3⟩ := idx1_3 t
  unfold iblk1
  rw [View.read_apply]
  show V c main_arg1 _ = V c main_arg1 _
  congr 1
  funext a
  apply Fin.ext
  match a with
  | ⟨0, _⟩ => show win1_3.index t (0 : Fin 4) * 1 + 1 * 0 = t.val / 8; rw [e0]; omega
  | ⟨1, _⟩ => show win1_3.index t (1 : Fin 4) * 128 + 1 * r.val = 128 * (t.val % 8) + r.val; rw [e1]; omega
  | ⟨2, _⟩ => show win1_3.index t (2 : Fin 4) * 1024 + 1 * j.val = j.val; rw [e2]; omega
  | ⟨3, _⟩ => show win1_3.index t (3 : Fin 4) * 16 + 1 * h.val = h.val; rw [e3]; omega

theorem blk4_apply (c : Dev nD) (t : Fin cfg1.N) (r : Fin 128) (e : Fin 1024) :
    (iblk1 V c 4 t : Vec Ideal S1x128x1024 .f32) (ix3 (0 : Fin 1) r e)
      = (V c main_arg0 : S2x1024x1024.Idx → EReal) (ix3 (bOf t) (qpos (qOf t) r) e) := by
  obtain ⟨e0, e1, e2⟩ := idx1_4 t
  unfold iblk1
  rw [View.read_apply]
  show V c main_arg0 _ = V c main_arg0 _
  congr 1
  funext a
  apply Fin.ext
  match a with
  | ⟨0, _⟩ => show win1_4.index t (0 : Fin 3) * 1 + 1 * 0 = t.val / 8; rw [e0]; omega
  | ⟨1, _⟩ => show win1_4.index t (1 : Fin 3) * 128 + 1 * r.val = 128 * (t.val % 8) + r.val; rw [e1]; omega
  | ⟨2, _⟩ => show win1_4.index t (2 : Fin 3) * 1024 + 1 * e.val = e.val; rw [e2]; omega

theorem blk5_apply (c : Dev nD) (t : Fin cfg1.N) (f e : Fin 1024) :
    (iblk1 V c 5 t : Vec Ideal S1024x1024 .f32) (ix2 f e) = (V c main_arg5 : S1024x1024.Idx → EReal) (ix2 f e) := by
  obtain ⟨e0, e1⟩ := idx1_5 t
  unfold iblk1
  rw [View.read_apply]
  show V c main_arg5 _ = V c main_arg5 _
  congr 1
  funext a
  apply Fin.ext
  match a with
  | ⟨0, _⟩ => show win1_5.index t (0 : Fin 2) * 1024 + 1 * f.val = f.val; rw [e0]; omega
  | ⟨1, _⟩ => show win1_5.index t (1 : Fin 2) * 1024 + 1 * e.val = e.val; rw [e1]; omega

theorem blk6_apply (c : Dev nD) (t : Fin cfg1.N) (f : Fin 1024) :
    (iblk1 V c 6 t : Vec Ideal S1x1024 .f32) (ix2 (0 : Fin 1) f) = (V c main_v1 : S1x1024.Idx → EReal) (ix2 (0 : Fin 1) f) := by
  obtain ⟨e0, e1⟩ := idx1_6 t
  unfold iblk1
  rw [View.read_apply]
  show V c main_v1 _ = V c main_v1 _
  congr 1
  funext a
  apply Fin.ext
  match a with
  | ⟨0, _⟩ => show win1_6.index t (0 : Fin 2) * 1 + 1 * 0 = 0; rw [e0]
  | ⟨1, _⟩ => show win1_6.index t (1 : Fin 2) * 1024 + 1 * f.val = f.val; rw [e1]; omega

theorem blk7_apply (c : Dev nD) (t : Fin cfg1.N) (f e : Fin 1024) :
    (iblk1 V c 7 t : Vec Ideal S1024x1024 .f32) (ix2 f e) = (V c main_arg3 : S1024x1024.Idx → EReal) (ix2 f e) := by
  obtain ⟨e0, e1⟩ := idx1_7 t
  unfold iblk1
  rw [View.read_apply]
  show V c main_arg3 _ = V c main_arg3 _
  congr 1
  funext a
  apply Fin.ext
  match a with
  | ⟨0, _⟩ => show win1_7.index t (0 : Fin 2) * 1024 + 1 * f.val = f.val; rw [e0]; omega
  | ⟨1, _⟩ => show win1_7.index t (1 : Fin 2) * 1024 + 1 * e.val = e.val; rw [e1]; omega

theorem blk8_apply (c : Dev nD) (t : Fin cfg1.N) (f : Fin 1024) :
    (iblk1 V c 8 t : Vec Ideal S1x1024 .f32) (ix2 (0 : Fin 1) f) = (V c main_v2 : S1x1024.Idx → EReal) (ix2 (0 : Fin 1) f) := by
  obtain ⟨e0, e1⟩ := idx1_8 t
  unfold iblk1
  rw [View.read_apply]
  show V c main_v2 _ = V c main_v2 _
  congr 1
  funext a
  apply Fin.ext
  match a with
  | ⟨0, _⟩ => show win1_8.index t (0 : Fin 2) * 1 + 1 * 0 = 0; rw [e0]
  | ⟨1, _⟩ => show win1_8.index t (1 : Fin 2) * 1024 + 1 * f.val = f.val; rw [e1]; omega

/-! ## What each point writes back -/

/-- The output array the region leaves, of the arrays it finds. -/
abbrev yOf (c : Dev nD) : Cert.Spec.Act :=
  yArr (V c main_v0_0) (V c main_v0_1) (V c main_v0_2) (V c main_arg1) (V c main_arg0) (V c main_arg5) (V c main_v1)
    (V c main_arg3) (V c main_v2)

/-- The attention weights the region leaves, of the arrays it finds. -/
abbrev aOf (c : Dev nD) : Cert.Spec.AttnOut := Cert.Spec.Attn (V c main_v0_0) (V c main_v0_1) (V c main_arg1)

theorem flushed_y (c : Dev nD) (t : Fin cfg1.N) :
    (dat1 (F := Ideal) V c).flushed 9 t = ((cfg1.win 9).blk t).view.read (Elt Ideal) (yOf V c) := by
  obtain ⟨e0, e1, e2⟩ := idx1_9 t
  show (cfg1.win 9).cut (grid1.coords t) ((dat1 V c).after 9 t) = _
  rw [after1_9]
  funext y
  rw [View.read_apply]
  obtain ⟨u, r, f, rfl⟩ : ∃ (u : Fin 1) (r : Fin 128) (f : Fin 1024), y = ix3 u r f :=
    ⟨y 0, y 1, y 2, eq_ix3 (n0 := 1) (n1 := 128) (n2 := 1024) y⟩
  obtain rfl : u = 0 := Subsingleton.elim _ _
  have hemb : ((cfg1.win 9).blk t).view.emb (ix3 (0 : Fin 1) r f) = ix3 (bOf t) (qpos (qOf t) r) f := by
    funext a
    apply Fin.ext
    match a with
    | ⟨0, _⟩ => show win1_9.index t (0 : Fin 3) * 1 + 1 * 0 = t.val / 8; rw [e0]; omega
    | ⟨1, _⟩ => show win1_9.index t (1 : Fin 3) * 128 + 1 * r.val = 128 * (t.val % 8) + r.val; rw [e1]; omega
    | ⟨2, _⟩ => show win1_9.index t (2 : Fin 3) * 1024 + 1 * f.val = f.val; rw [e2]; omega
  rw [hemb]
  exact blockY_eq (iblk1 V c 0 t) (iblk1 V c 1 t) (iblk1 V c 2 t) (iblk1 V c 3 t) (iblk1 V c 4 t) (iblk1 V c 5 t)
    (iblk1 V c 6 t) (iblk1 V c 7 t) (iblk1 V c 8 t) (V c main_v0_0) (V c main_v0_1) (V c main_v0_2) (V c main_arg1)
    (V c main_arg0) (V c main_arg5) (V c main_v1) (V c main_arg3) (V c main_v2) (bOf t) (qOf t)
    (fun h r cc => blk0_apply V c t h r cc) (fun h j cc => blk1_apply V c t h j cc) (fun h j cc => blk2_apply V c t h j cc)
    (fun r j h => blk3_apply V c t r j h) (fun r e => blk4_apply V c t r e) (fun f e => blk5_apply V c t f e)
    (fun f => blk6_apply V c t f) (fun f e => blk7_apply V c t f e) (fun f => blk8_apply V c t f) r f

theorem flushed_a (c : Dev nD) (t : Fin cfg1.N) :
    (dat1 (F := Ideal) V c).flushed 10 t = ((cfg1.win 10).blk t).view.read (Elt Ideal) (aOf V c) := by
  obtain ⟨e0, e1, e2, e3⟩ := idx1_10 t
  show (cfg1.win 10).cut (grid1.coords t) ((dat1 V c).after 10 t) = _
  rw [after1_10]
  funext y
  rw [View.read_apply]
  obtain ⟨u, j, h, r, rfl⟩ : ∃ (u : Fin 1) (j : Fin 1024) (h : Fin 16) (r : Fin 128), y = ix4 u j h r :=
    ⟨y 0, y 1, y 2, y 3, eq_ix4 (n0 := 1) (n1 := 1024) (n2 := 16) (n3 := 128) y⟩
  obtain rfl : u = 0 := Subsingleton.elim _ _
  have hemb : ((cfg1.win 10).blk t).view.emb (ix4 (0 : Fin 1) j h r) = ix4 (bOf t) j h (qpos (qOf t) r) := by
    funext a
    apply Fin.ext
    match a with
    | ⟨0, _⟩ => show win1_10.index t (0 : Fin 4) * 1 + 1 * 0 = t.val / 8; rw [e0]; omega
    | ⟨1, _⟩ => show win1_10.index t (1 : Fin 4) * 1024 + 1 * j.val = j.val; rw [e1]; omega
    | ⟨2, _⟩ => show win1_10.index t (2 : Fin 4) * 16 + 1 * h.val = h.val; rw [e2]; omega
    | ⟨3, _⟩ => show win1_10.index t (3 : Fin 4) * 128 + 1 * r.val = 128 * (t.val % 8) + r.val; rw [e3]; omega
  rw [hemb]
  exact blockA_eq (iblk1 V c 0 t) (iblk1 V c 1 t) (iblk1 V c 2 t) (iblk1 V c 3 t) (iblk1 V c 4 t) (iblk1 V c 5 t)
    (iblk1 V c 6 t) (iblk1 V c 7 t) (iblk1 V c 8 t) (V c main_v0_0) (V c main_v0_1) (V c main_arg1) (bOf t) (qOf t)
    (fun h r cc => blk0_apply V c t h r cc) (fun h j cc => blk1_apply V c t h j cc) (fun r j h => blk3_apply V c t r j h) j h r

/-! ## The sixteen blocks tile each output array -/

theorem mem_blk_y (t : Fin cfg1.N) (i : S2x1024x1024.Idx) :
    i ∈ ((cfg1.win 9).blk t).view.set ↔ ∀ a : Fin 3, win1_9.index t a * S1x128x1024.size a ≤ (i a).val
      ∧ (i a).val < win1_9.index t a * S1x128x1024.size a + S1x128x1024.size a := by
  show i ∈ ((View.whole main_v3_0).slice (win1_9.rect t)).set ↔ _
  rw [View.set_slice_whole, Rect.mem_set_unit]
  exact Iff.rfl

theorem mem_blk_a (t : Fin cfg1.N) (i : S2x1024x16x1024.Idx) :
    i ∈ ((cfg1.win 10).blk t).view.set ↔ ∀ a : Fin 4, win1_10.index t a * S1x1024x16x128.size a ≤ (i a).val
      ∧ (i a).val < win1_10.index t a * S1x1024x16x128.size a + S1x1024x16x128.size a := by
  show i ∈ ((View.whole main_v3_1).slice (win1_10.rect t)).set ↔ _
  rw [View.set_slice_whole, Rect.mem_set_unit]
  exact Iff.rfl

/-- Index (b, p, f) of the output lies in the block of point 8 b + p / 128. -/
theorem cover_y (i : S2x1024x1024.Idx) : ∃ t : Fin cfg1.N, (cfg1.win 9).flush t = true ∧ i ∈ ((cfg1.win 9).blk t).view.set := by
  have hN : grid1.N = 16 := N_1
  have hi0 : (i 0).val < 2 := (i 0).isLt
  have hi1 : (i 1).val < 1024 := (i 1).isLt
  have hi2 : (i 2).val < 1024 := (i 2).isLt
  let t : Fin cfg1.N := ⟨8 * (i 0).val + (i 1).val / 128, by show _ < grid1.N; omega⟩
  obtain ⟨e0, e1, e2⟩ := idx1_9 t
  have ht : t.val = 8 * (i 0).val + (i 1).val / 128 := rfl
  refine ⟨t, flush1_9 t, ?_⟩
  rw [mem_blk_y]
  intro a
  match a with
  | ⟨0, _⟩ => show win1_9.index t (0 : Fin 3) * 1 ≤ (i 0).val ∧ (i 0).val < win1_9.index t (0 : Fin 3) * 1 + 1; rw [e0, ht]; omega
  | ⟨1, _⟩ => show win1_9.index t (1 : Fin 3) * 128 ≤ (i 1).val ∧ (i 1).val < win1_9.index t (1 : Fin 3) * 128 + 128; rw [e1, ht]; omega
  | ⟨2, _⟩ => show win1_9.index t (2 : Fin 3) * 1024 ≤ (i 2).val ∧ (i 2).val < win1_9.index t (2 : Fin 3) * 1024 + 1024; rw [e2]; omega

/-- Index (b, j, h, p) of the attention weights lies in the block of point 8 b + p / 128. -/
theorem cover_a (i : S2x1024x16x1024.Idx) : ∃ t : Fin cfg1.N, (cfg1.win 10).flush t = true ∧ i ∈ ((cfg1.win 10).blk t).view.set := by
  have hN : grid1.N = 16 := N_1
  have hi0 : (i 0).val < 2 := (i 0).isLt
  have hi1 : (i 1).val < 1024 := (i 1).isLt
  have hi2 : (i 2).val < 16 := (i 2).isLt
  have hi3 : (i 3).val < 1024 := (i 3).isLt
  let t : Fin cfg1.N := ⟨8 * (i 0).val + (i 3).val / 128, by show _ < grid1.N; omega⟩
  obtain ⟨e0, e1, e2, e3⟩ := idx1_10 t
  have ht : t.val = 8 * (i 0).val + (i 3).val / 128 := rfl
  refine ⟨t, flush1_10 t, ?_⟩
  rw [mem_blk_a]
  intro a
  match a with
  | ⟨0, _⟩ => show win1_10.index t (0 : Fin 4) * 1 ≤ (i 0).val ∧ (i 0).val < win1_10.index t (0 : Fin 4) * 1 + 1; rw [e0, ht]; omega
  | ⟨1, _⟩ => show win1_10.index t (1 : Fin 4) * 1024 ≤ (i 1).val ∧ (i 1).val < win1_10.index t (1 : Fin 4) * 1024 + 1024; rw [e1]; omega
  | ⟨2, _⟩ => show win1_10.index t (2 : Fin 4) * 16 ≤ (i 2).val ∧ (i 2).val < win1_10.index t (2 : Fin 4) * 16 + 16; rw [e2]; omega
  | ⟨3, _⟩ => show win1_10.index t (3 : Fin 4) * 128 ≤ (i 3).val ∧ (i 3).val < win1_10.index t (3 : Fin 4) * 128 + 128; rw [e3, ht]; omega

/-- After the region the output array is that function of the arrays the region found. -/
theorem y_final (c : Dev nD) : (dat1 (F := Ideal) V c).arrAt 9 cfg1.N = yOf V c :=
  (dat1 (F := Ideal) V c).arrAt_eq_of_cover 9 (yOf V c) (fun t _ => flushed_y V c t) cover_y

/-- After the region the attention array holds the attention weights of the arrays the region found. -/
theorem a_final (c : Dev nD) : (dat1 (F := Ideal) V c).arrAt 10 cfg1.N = aOf V c :=
  (dat1 (F := Ideal) V c).arrAt_eq_of_cover 10 (aOf V c) (fun t _ => flushed_a V c t) cover_a

end Cert.KernelIdeal.AttnValue

end
-- ==== Proof.KernelRun.lean ====
/-
  The idealized kernel's run, with its two results named. The program is two kernel regions with two host reshapes
  between them (the gate bias and the output bias, each recast from [1024] to a row [1,1024]). After the first region
  its three output arrays hold the scaled queries, the keys and the values of the launch's x and fused weight; the
  reshapes leave them alone; so the second region finds them, the launch's bias, x and the two square weights, and
  the two bias rows, and leaves the specification's output and attention weights of the launch memory.
-/
import proofs.«175424_j3453153706649_2_alg».proof.Proof.Gen.KernelIdeal.Frame
import proofs.«175424_j3453153706649_2_alg».proof.Proof.QkvValue
import proofs.«175424_j3453153706649_2_alg».proof.Proof.AttnValue
import Idealize.ShloMosaic.Lib.StableHlo.Run

set_option maxRecDepth 16384

noncomputable section

namespace Cert.KernelIdeal.RunValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.AttnValue

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes
-- unfolding plain definitions in a metavariable's type
set_option backward.isDefEq.respectTransparency.types false in
/-- Every weakly fair execution of the idealized kernel terminates, nothing faulting, with each result array at the
    contents the run's last boundary gives it and the argument arrays as launched. -/
theorem run_boundary : θ_run defs (onTc (τ := τ) (main (F := Ideal))) ⟨m, fun _ => 0, ρ⟩ (fun r => ∀ c : Dev nD,
      r.2.mem ((c.tc : Thread nD τ).loc main_v3_0) = W3 m ρ c (Proc.devRef .tc main_v3_0)
      ∧ r.2.mem ((c.tc : Thread nD τ).loc main_v3_1) = W3 m ρ c (Proc.devRef .tc main_v3_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3_0 (by decide)), h c _ (mem_uc main_v3_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

/-! ## The arrays the second region finds -/

theorem V2_q (c : Dev nD) : V2 m ρ c main_v0_0 = (dat0 (V0 m ρ) c).arrAt 2 cfg0.N :=
  (StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_arr m ρ c 2)
theorem V2_k (c : Dev nD) : V2 m ρ c main_v0_1 = (dat0 (V0 m ρ) c).arrAt 3 cfg0.N :=
  (StableHlo.after_of_forall_not_mem (b := Proc.devRef .tc main_v0_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_arr m ρ c 3)
theorem V2_v (c : Dev nD) : V2 m ρ c main_v0_2 = (dat0 (V0 m ρ) c).arrAt 4 cfg0.N :=
  (StableHlo.after_of_forall_not_mem (b := Proc.devRef .tc main_v0_2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_arr m ρ c 4)

theorem V2_arg0 (c : Dev nD) : V2 m ρ c main_arg0 = m ((c : Thread nD τ).loc main_arg0) :=
  ((W3_arr m ρ c 4).trans (((dat1 (V2 m ρ) c).arrAt_in 4 rfl _).trans (A_eq1 (V2 m ρ) c 4))).symm.trans (W3_main_arg0 m ρ c)
theorem V2_arg1 (c : Dev nD) : V2 m ρ c main_arg1 = m ((c : Thread nD τ).loc main_arg1) :=
  ((W3_arr m ρ c 3).trans (((dat1 (V2 m ρ) c).arrAt_in 3 rfl _).trans (A_eq1 (V2 m ρ) c 3))).symm.trans (W3_main_arg1 m ρ c)
theorem V2_arg5 (c : Dev nD) : V2 m ρ c main_arg5 = m ((c : Thread nD τ).loc main_arg5) :=
  ((W3_arr m ρ c 5).trans (((dat1 (V2 m ρ) c).arrAt_in 5 rfl _).trans (A_eq1 (V2 m ρ) c 5))).symm.trans (W3_main_arg5 m ρ c)
theorem V2_arg3 (c : Dev nD) : V2 m ρ c main_arg3 = m ((c : Thread nD τ).loc main_arg3) :=
  ((W3_arr m ρ c 7).trans (((dat1 (V2 m ρ) c).arrAt_in 7 rfl _).trans (A_eq1 (V2 m ρ) c 7))).symm.trans (W3_main_arg3 m ρ c)

theorem W1_arg6 (c : Dev nD) : W1 m ρ c (Proc.devRef .tc main_arg6) = m ((c : Thread nD τ).loc main_arg6) :=
  W1_of_ne m ρ c main_arg6 (by decide)
theorem W1_arg4 (c : Dev nD) : W1 m ρ c (Proc.devRef .tc main_arg4) = m ((c : Thread nD τ).loc main_arg4) :=
  W1_of_ne m ρ c main_arg4 (by decide)

/-- The gate bias as the second region finds it: the launch's vector recast as a row. -/
theorem V2_bg (c : Dev nD) : (V2 m ρ c main_v1 : S1x1024.Idx → EReal)
    = shapeCast S1x1024 (m ((c : Thread nD τ).loc main_arg6) : S1024.Idx → EReal) shapeCasts_S1024_S1x1024 := by
  rw [← W1_arg6 m ρ c]
  show StableHlo.after hostOps1 (W1 m ρ c) (Proc.devRef .tc main_v1) = _
  after_results
  rfl

/-- The output bias as the second region finds it: the launch's vector recast as a row. -/
theorem V2_bo (c : Dev nD) : (V2 m ρ c main_v2 : S1x1024.Idx → EReal)
    = shapeCast S1x1024 (m ((c : Thread nD τ).loc main_arg4) : S1024.Idx → EReal) shapeCasts_S1024_S1x1024 := by
  rw [← W1_arg4 m ρ c]
  show StableHlo.after hostOps1 (W1 m ρ c) (Proc.devRef .tc main_v2) = _
  after_results
  rfl

/-! ## The two results -/

/-- A vector recast as a row reads, at (0, f), its entry f. -/
theorem row_apply (u : S1024.Idx → EReal) (f : Fin 1024) :
    shapeCast S1x1024 u shapeCasts_S1024_S1x1024 (ix2 (0 : Fin 1) f) = u (ix1 f) := by
  refine shapeCast_apply u shapeCasts_S1024_S1x1024 (ix2 (0 : Fin 1) f) (ix1 f) ?_
  rw [Shape.rowMajor_val_two, Shape.rowMajor_val_one]
  show f.val = 0 * 1024 + f.val
  omega

/-- With the two bias rows the recast vectors, the region's output array is the specification's. -/
theorem yArr_rows (q k v : Cert.Spec.Heads) (bias : Cert.Spec.Bias) (x : Cert.Spec.Act) (wg wo : Cert.Spec.WSq)
    (bg bo : Cert.Spec.BVec) :
    yArr q k v bias x wg (shapeCast S1x1024 bg shapeCasts_S1024_S1x1024) wo (shapeCast S1x1024 bo shapeCasts_S1024_S1x1024)
      = Cert.Spec.Y q k v bias x wg bg wo bo := by
  funext i
  have hr : ∀ u : Cert.Spec.BVec,
      (fun f : Fin 1024 => shapeCast S1x1024 u shapeCasts_S1024_S1x1024 (ix2 (0 : Fin 1) f)) = fun f => u (ix1 f) :=
    fun u => funext fun f => row_apply u f
  unfold yArr
  rw [hr bg, hr bo]
  rfl

/-- The first result after the run: the specification's output of the launch memory. -/
theorem out_y (c : Dev nD) : W3 m ρ c (Proc.devRef .tc main_v3_0)
    = Cert.Spec.Y (Cert.Spec.Q (m ((c : Thread nD τ).loc main_arg0)) (m ((c : Thread nD τ).loc main_arg2)))
        (Cert.Spec.K (m ((c : Thread nD τ).loc main_arg0)) (m ((c : Thread nD τ).loc main_arg2)))
        (Cert.Spec.V (m ((c : Thread nD τ).loc main_arg0)) (m ((c : Thread nD τ).loc main_arg2)))
        (m ((c : Thread nD τ).loc main_arg1)) (m ((c : Thread nD τ).loc main_arg0)) (m ((c : Thread nD τ).loc main_arg5))
        (m ((c : Thread nD τ).loc main_arg6)) (m ((c : Thread nD τ).loc main_arg3)) (m ((c : Thread nD τ).loc main_arg4)) := by
  refine ((W3_arr m ρ c 9).trans (y_final (V2 m ρ) c)).trans ?_
  show yArr (V2 m ρ c main_v0_0) (V2 m ρ c main_v0_1) (V2 m ρ c main_v0_2) (V2 m ρ c main_arg1) (V2 m ρ c main_arg0)
    (V2 m ρ c main_arg5) (V2 m ρ c main_v1) (V2 m ρ c main_arg3) (V2 m ρ c main_v2) = _
  rw [V2_q, V2_k, V2_v, V2_arg1, V2_arg0, V2_arg5, V2_arg3, V2_bg, V2_bo,
    Cert.KernelIdeal.QkvValue.q_final, Cert.KernelIdeal.QkvValue.k_final, Cert.KernelIdeal.QkvValue.v_final]
  exact yArr_rows _ _ _ _ _ _ _ _ _

/-- The second result after the run: the specification's attention weights of the launch memory. -/
theorem out_attn (c : Dev nD) : W3 m ρ c (Proc.devRef .tc main_v3_1)
    = Cert.Spec.Attn (Cert.Spec.Q (m ((c : Thread nD τ).loc main_arg0)) (m ((c : Thread nD τ).loc main_arg2)))
        (Cert.Spec.K (m ((c : Thread nD τ).loc main_arg0)) (m ((c : Thread nD τ).loc main_arg2)))
        (m ((c : Thread nD τ).loc main_arg1)) := by
  refine ((W3_arr m ρ c 10).trans (a_final (V2 m ρ) c)).trans ?_
  show Cert.Spec.Attn (V2 m ρ c main_v0_0) (V2 m ρ c main_v0_1) (V2 m ρ c main_arg1) = _
  rw [V2_q, V2_k, V2_arg1, Cert.KernelIdeal.QkvValue.q_final, Cert.KernelIdeal.QkvValue.k_final]

/-- The idealized kernel's run, read: each result at the specification's function of the launch memory. -/
theorem run : θ_run defs (onTc (τ := τ) (main (F := Ideal))) ⟨m, fun _ => 0, ρ⟩ (fun r => ∀ c : Dev nD,
      r.2.mem ((c.tc : Thread nD τ).loc main_v3_0)
        = Cert.Spec.Y (Cert.Spec.Q (m ((c : Thread nD τ).loc main_arg0)) (m ((c : Thread nD τ).loc main_arg2)))
            (Cert.Spec.K (m ((c : Thread nD τ).loc main_arg0)) (m ((c : Thread nD τ).loc main_arg2)))
            (Cert.Spec.V (m ((c : Thread nD τ).loc main_arg0)) (m ((c : Thread nD τ).loc main_arg2)))
            (m ((c : Thread nD τ).loc main_arg1)) (m ((c : Thread nD τ).loc main_arg0)) (m ((c : Thread nD τ).loc main_arg5))
            (m ((c : Thread nD τ).loc main_arg6)) (m ((c : Thread nD τ).loc main_arg3)) (m ((c : Thread nD τ).loc main_arg4))
      ∧ r.2.mem ((c.tc : Thread nD τ).loc main_v3_1)
        = Cert.Spec.Attn (Cert.Spec.Q (m ((c : Thread nD τ).loc main_arg0)) (m ((c : Thread nD τ).loc main_arg2)))
            (Cert.Spec.K (m ((c : Thread nD τ).loc main_arg0)) (m ((c : Thread nD τ).loc main_arg2)))
            (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (out_y m ρ c), (h c).2.1.trans (out_attn m ρ c), (h c).2.2⟩)
    (run_boundary m ρ)

end Cert.KernelIdeal.RunValue

end
-- ==== Proof.LibHostMax.lean ====
/-
  A host maximum reduction of a rank-4 array along its last axis, at the exact values, read at an index given by
  coordinates — a general module, general in the extents: the result at (i, j, k) is the fold of `max` from the initial
  value over the entries (i, j, k, l), l running over the reduced axis.
-/
import Idealize.ShloMosaic.Lib.ValueIdx
import Idealize.ShloMosaic.PureOps.Reduce
import Idealize.ShloMosaic.PureOps.Ideal.Laws

namespace Cert.LibHostMax

open Idealize.ShloMosaic Idealize.ShloMosaic.ValueIdx

/-- Reducing `[a, b, c, d]` over its last axis: over `(i, j, k)`, coordinate `l` on the reduced axis is `(i, j, k, l)`. -/
theorem lift_last_abcd {a b c d : ℕ} (h : (⟨4, ![a, b, c, d]⟩ : Shape).Reduces [3] ⟨3, ![a, b, c]⟩) (i : Fin a) (j : Fin b)
    (k : Fin c) (l : Fin d) : h.lift (ix3 i j k) l = ix4 i j k l := by
  funext ax
  apply Fin.ext
  match ax with
  | ⟨0, _⟩ => rfl
  | ⟨1, _⟩ => rfl
  | ⟨2, _⟩ => rfl
  | ⟨3, _⟩ => rfl

/-- The host's maximum reduction along the last of four axes, at the exact values, read at `(i, j, k)`. -/
theorem hostReduce_max_last_abcd {φ : FTy} {a b c d : ℕ} {u : Shape} (x : FVec Ideal ⟨4, ![a, b, c, d]⟩ φ) (init : FVec Ideal u φ)
    (h' : (⟨4, ![a, b, c, d]⟩ : Shape).ReducesTo [3] ⟨3, ![a, b, c]⟩) (h : (⟨4, ![a, b, c, d]⟩ : Shape).Reduces [3] ⟨3, ![a, b, c]⟩)
    (hu : 0 < u.numel) (i : Fin a) (j : Fin b) (k : Fin c) :
    Host.reduce (FloatOps.maximumf (F := Ideal) (φ := φ)) x init h' hu (ix3 i j k)
      = (Finset.univ : Finset (Fin d)).fold max (init (Shape.Idx.first hu)) (fun l => x (ix4 i j k l)) :=
  (Host.reduce_eq_fold_single (FloatOps.maximumf (F := Ideal) (φ := φ)) x init h' h hu (ix3 i j k)).trans
    (congrArg (fun f => (Finset.univ : Finset (Fin d)).fold max (init (Shape.Idx.first hu)) f)
      (funext fun l => congrArg x (lift_last_abcd h i j k l)))

end Cert.LibHostMax
-- ==== Proof.RefIsSpec.lean ====
/-
  The reference program computes the specification.

  The reference forms x · wᵀ as one [2,1024,3072] array, regroups its last axis as sixteen heads of 192 columns, moves the
  head axis in front of the position axis and cuts the 192 columns into the query, key and value pieces; so entry
  (b,h,l,c) of the piece at offset o is entry (b, l, 192h + o + c) of the product, which is the specification's row
  `192h + o + c` of the fused weight. The scores, their row maximum, the exponentials, the row sum and the quotient are the
  specification's, entry by entry: the reference's row maximum is taken from minus infinity and then once more against
  minus infinity, which changes nothing because the fold already starts there; its row sum starts from zero. The weighted
  sum of the values is formed with the factors in the other order (value times weight), and lands in [2,16,64,1024];
  moving the query axis to the second place and merging (head, column) into one feature axis gives feature e = 64h + c,
  that is head e / 64 and column e % 64. The gate is spelled 1 / (1 + exp(−z)), which is the logistic function by
  definition once the word of 1.0 is read as the number one.
-/
import proofs.«175424_j3453153706649_2_alg».proof.Proof.Gen.ReferenceIdeal.Read
import proofs.«175424_j3453153706649_2_alg».proof.Proof.Spec
import proofs.«175424_j3453153706649_2_alg».proof.Proof.LibHostMax
import Idealize.ShloMosaic.Lib.IdealHost

noncomputable section

namespace Cert.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S2x1024x1024, .f32⟩ : BufTy).Contents (Elt Ideal))
  (x1 : (⟨S2x1024x1024x16, .f32⟩ : BufTy).Contents (Elt Ideal))
  (x2 : (⟨S3072x1024, .f32⟩ : BufTy).Contents (Elt Ideal))
  (x3 : (⟨S1024x1024, .f32⟩ : BufTy).Contents (Elt Ideal))
  (x4 : (⟨S1024, .f32⟩ : BufTy).Contents (Elt Ideal))
  (x5 : (⟨S1024x1024, .f32⟩ : BufTy).Contents (Elt Ideal))
  (x6 : (⟨S1024, .f32⟩ : BufTy).Contents (Elt Ideal))

/-! ## The fused projection and its three pieces -/

theorem lidx_v0 (b : Fin 2) (l : Fin 1024) (f : Fin 3072) (k : Fin 1024) :
    lidx_main_v0 (ix3 b l f) k = ix3 b l k := by
  funext a; match a with | ⟨0, _⟩ => rfl | ⟨1, _⟩ => rfl | ⟨2, _⟩ => rfl

theorem ridx_v0 (b : Fin 2) (l : Fin 1024) (f : Fin 3072) (k : Fin 1024) :
    ridx_main_v0 (ix3 b l f) k = ix2 f k := by
  funext a; match a with | ⟨0, _⟩ => rfl | ⟨1, _⟩ => rfl

/-- Entry (b, l, f) of x · wᵀ. -/
theorem v0_at (b : Fin 2) (l : Fin 1024) (f : Fin 3072) :
    val_main_v0 (F := Ideal) x0 x2 (ix3 b l f) = Spec.proj x0 x2 b l f := by
  rw [val_main_v0_apply]
  unfold Spec.proj
  refine Finset.sum_congr rfl fun k _ => ?_
  rw [lidx_v0, ridx_v0]

/-- Regrouping, moving the head axis forward and cutting at offset `o`: entry (b,h,l,c) comes from (b, l, 192h + o + c). -/
theorem idx_v3 (b : Fin 2) (h : Fin 16) (l : Fin 1024) (c : Fin 64) :
    idx_main_v1 (idx_main_v2 (idx_main_v3 (ix4 b h l c))) = ix3 b l (Spec.wrow h c 0 (by omega)) := by
  have hb := b.isLt; have hh := h.isLt; have hl := l.isLt; have hc := c.isLt
  funext a; apply Fin.ext
  match a with
  | ⟨0, _⟩ => show ((((b.val * 1024 + l.val) * 16 + h.val) * 192 + c.val) / 3145728 = b.val); omega
  | ⟨1, _⟩ => show ((((b.val * 1024 + l.val) * 16 + h.val) * 192 + c.val) / 3072 % 1024 = l.val); omega
  | ⟨2, _⟩ => show ((((b.val * 1024 + l.val) * 16 + h.val) * 192 + c.val) % 3072 = 192 * h.val + 0 + c.val); omega

theorem idx_v4 (b : Fin 2) (h : Fin 16) (l : Fin 1024) (c : Fin 64) :
    idx_main_v1 (idx_main_v2 (idx_main_v4 (ix4 b h l c))) = ix3 b l (Spec.wrow h c 64 (by omega)) := by
  have hb := b.isLt; have hh := h.isLt; have hl := l.isLt; have hc := c.isLt
  funext a; apply Fin.ext
  match a with
  | ⟨0, _⟩ => show ((((b.val * 1024 + l.val) * 16 + h.val) * 192 + (64 + c.val)) / 3145728 = b.val); omega
  | ⟨1, _⟩ => show ((((b.val * 1024 + l.val) * 16 + h.val) * 192 + (64 + c.val)) / 3072 % 1024 = l.val); omega
  | ⟨2, _⟩ => show ((((b.val * 1024 + l.val) * 16 + h.val) * 192 + (64 + c.val)) % 3072 = 192 * h.val + 64 + c.val); omega

theorem idx_v5 (b : Fin 2) (h : Fin 16) (l : Fin 1024) (c : Fin 64) :
    idx_main_v1 (idx_main_v2 (idx_main_v5 (ix4 b h l c))) = ix3 b l (Spec.wrow h c 128 (by omega)) := by
  have hb := b.isLt; have hh := h.isLt; have hl := l.isLt; have hc := c.isLt
  funext a; apply Fin.ext
  match a with
  | ⟨0, _⟩ => show ((((b.val * 1024 + l.val) * 16 + h.val) * 192 + (128 + c.val)) / 3145728 = b.val); omega
  | ⟨1, _⟩ => show ((((b.val * 1024 + l.val) * 16 + h.val) * 192 + (128 + c.val)) / 3072 % 1024 = l.val); omega
  | ⟨2, _⟩ => show ((((b.val * 1024 + l.val) * 16 + h.val) * 192 + (128 + c.val)) % 3072 = 192 * h.val + 128 + c.val); omega

/-- The scaled queries. -/
theorem v7_at (b : Fin 2) (h : Fin 16) (l : Fin 1024) (c : Fin 64) :
    val_main_v7 (F := Ideal) x0 x2 (ix4 b h l c) = Spec.Q x0 x2 (ix4 b h l c) := by
  rw [val_main_v7_apply, val_main_v6_apply, val_main_cst_apply, val_main_v3_apply, val_main_v2_apply, val_main_v1_apply,
    idx_v3, v0_at]
  rfl

/-- The keys. -/
theorem v4_at (b : Fin 2) (h : Fin 16) (l : Fin 1024) (c : Fin 64) :
    val_main_v4 (F := Ideal) x0 x2 (ix4 b h l c) = Spec.K x0 x2 (ix4 b h l c) := by
  rw [val_main_v4_apply, val_main_v2_apply, val_main_v1_apply, idx_v4, v0_at]
  rfl

/-- The values. -/
theorem v5_at (b : Fin 2) (h : Fin 16) (l : Fin 1024) (c : Fin 64) :
    val_main_v5 (F := Ideal) x0 x2 (ix4 b h l c) = Spec.V x0 x2 (ix4 b h l c) := by
  rw [val_main_v5_apply, val_main_v2_apply, val_main_v1_apply, idx_v5, v0_at]
  rfl

/-! ## The scores -/

theorem lidx_v8 (b : Fin 2) (h : Fin 16) (p j : Fin 1024) (k : Fin 64) :
    lidx_main_v8 (ix4 b h p j) k = ix4 b h p k := by
  funext a; match a with | ⟨0, _⟩ => rfl | ⟨1, _⟩ => rfl | ⟨2, _⟩ => rfl | ⟨3, _⟩ => rfl

theorem ridx_v8 (b : Fin 2) (h : Fin 16) (p j : Fin 1024) (k : Fin 64) :
    ridx_main_v8 (ix4 b h p j) k = ix4 b h j k := by
  funext a; match a with | ⟨0, _⟩ => rfl | ⟨1, _⟩ => rfl | ⟨2, _⟩ => rfl | ⟨3, _⟩ => rfl

theorem idx_v9 (b : Fin 2) (h : Fin 16) (p j : Fin 1024) :
    idx_main_v9 (ix4 b h p j) = ix4 b p j h := by
  funext a; match a with | ⟨0, _⟩ => rfl | ⟨1, _⟩ => rfl | ⟨2, _⟩ => rfl | ⟨3, _⟩ => rfl

/-- The biased score of query `p` against key `j` in head `h`. -/
theorem v10_at (b : Fin 2) (h : Fin 16) (p j : Fin 1024) :
    val_main_v10 (F := Ideal) x0 x1 x2 (ix4 b h p j)
      = Spec.score (Spec.Q x0 x2) (Spec.K x0 x2) x1 b h p j := by
  rw [val_main_v10_apply, val_main_v8_apply, val_main_v9_apply, idx_v9]
  unfold Spec.score
  refine congrArg (· + x1 (ix4 b p j h)) (Finset.sum_congr rfl fun k _ => ?_)
  rw [lidx_v8, ridx_v8, v7_at, v4_at]

/-! ## The row maximum, the exponentials, the row sum and the weights -/

/-- The maximum reduction along the keys is the fold of `max` from minus infinity over the row's scores. -/
theorem v11_at (b : Fin 2) (h : Fin 16) (p : Fin 1024) :
    val_main_v11 (F := Ideal) x0 x1 x2 (ix3 b h p) = Spec.rowMax (Spec.Q x0 x2) (Spec.K x0 x2) x1 b h p := by
  unfold val_main_v11
  refine (Cert.LibHostMax.hostReduce_max_last_abcd (val_main_v10 (F := Ideal) x0 x1 x2) (val_main_cst_0 (F := Ideal))
    reducesTo_S2x16x1024x1024_S2x16x1024_d3 (by decide) h_S_ b h p).trans ?_
  unfold Spec.rowMax
  simp only [v10_at]
  rfl

/-- Taking the maximum with minus infinity once more changes nothing: the fold starts there. -/
theorem v13_at (b : Fin 2) (h : Fin 16) (p : Fin 1024) :
    val_main_v13 (F := Ideal) x0 x1 x2 (ix3 b h p) = Spec.rowMax (Spec.Q x0 x2) (Spec.K x0 x2) x1 b h p := by
  rw [val_main_v13_apply, val_main_v12_apply, val_main_cst_1_apply, v11_at]
  show max Spec.negInf (Spec.rowMax (Spec.Q x0 x2) (Spec.K x0 x2) x1 b h p) = _
  refine max_eq_right ?_
  unfold Spec.rowMax
  exact (Finset.le_fold_max _).mpr (Or.inl le_rfl)

/-- A row's value, kept as a column of width one and then repeated along the keys, read at (b,h,p,j). -/
theorem idx_v15 (b : Fin 2) (h : Fin 16) (p j : Fin 1024) :
    idx_main_v14 (idx_main_v15 (ix4 b h p j)) = ix3 b h p := by
  funext a; match a with | ⟨0, _⟩ => rfl | ⟨1, _⟩ => rfl | ⟨2, _⟩ => rfl

theorem idx_v20 (b : Fin 2) (h : Fin 16) (p j : Fin 1024) :
    idx_main_v19 (idx_main_v20 (ix4 b h p j)) = ix3 b h p := by
  funext a; match a with | ⟨0, _⟩ => rfl | ⟨1, _⟩ => rfl | ⟨2, _⟩ => rfl

theorem idx_v18 (b : Fin 2) (h : Fin 16) (p k : Fin 1024) :
    idx_main_v18 (ix3 b h p) k = ix4 b h p k := by
  funext a; match a with | ⟨0, _⟩ => rfl | ⟨1, _⟩ => rfl | ⟨2, _⟩ => rfl | ⟨3, _⟩ => rfl

theorem v17_at (b : Fin 2) (h : Fin 16) (p j : Fin 1024) :
    val_main_v17 (F := Ideal) x0 x1 x2 (ix4 b h p j) = Spec.expo (Spec.Q x0 x2) (Spec.K x0 x2) x1 b h p j := by
  rw [val_main_v17_apply, val_main_v16_apply, val_main_v15_apply, val_main_v14_apply, idx_v15, v13_at, v10_at]
  rfl

/-- The row sum starts from the word of zero. -/
theorem v18_at (b : Fin 2) (h : Fin 16) (p : Fin 1024) :
    val_main_v18 (F := Ideal) x0 x1 x2 (ix3 b h p) = Spec.denom (Spec.Q x0 x2) (Spec.K x0 x2) x1 b h p := by
  rw [val_main_v18_apply, val_main_cst_2_apply, Ideal.ofBits_def, Ideal.ofBits_zero_f32, zero_add]
  unfold Spec.denom
  refine Finset.sum_congr rfl fun j _ => ?_
  rw [idx_v18, v17_at]

theorem v21_at (b : Fin 2) (h : Fin 16) (p j : Fin 1024) :
    val_main_v21 (F := Ideal) x0 x1 x2 (ix4 b h p j) = Spec.prob (Spec.Q x0 x2) (Spec.K x0 x2) x1 b h p j := by
  rw [val_main_v21_apply, val_main_v20_apply, val_main_v19_apply, idx_v20, v18_at, v17_at]
  rfl

/-! ## The weighted sum of the values -/

theorem lidx_v22 (b : Fin 2) (h : Fin 16) (c : Fin 64) (p k : Fin 1024) :
    lidx_main_v22 (ix4 b h c p) k = ix4 b h k c := by
  funext a; match a with | ⟨0, _⟩ => rfl | ⟨1, _⟩ => rfl | ⟨2, _⟩ => rfl | ⟨3, _⟩ => rfl

theorem ridx_v22 (b : Fin 2) (h : Fin 16) (c : Fin 64) (p k : Fin 1024) :
    ridx_main_v22 (ix4 b h c p) k = ix4 b h p k := by
  funext a; match a with | ⟨0, _⟩ => rfl | ⟨1, _⟩ => rfl | ⟨2, _⟩ => rfl | ⟨3, _⟩ => rfl

/-- Merging (head, column) into one feature axis: feature `e` is head `e / 64`, column `e % 64`. -/
theorem idx_v24 (b : Fin 2) (p e : Fin 1024) :
    idx_main_v23 (idx_main_v24 (ix3 b p e)) = ix4 b (Spec.headOf e) (Spec.colOf e) p := by
  have hb := b.isLt; have hp := p.isLt; have he := e.isLt
  funext a; apply Fin.ext
  match a with
  | ⟨0, _⟩ => show (((b.val * 1024 + p.val) * 1024 + e.val) / 1048576 = b.val); omega
  | ⟨1, _⟩ => show (((b.val * 1024 + p.val) * 1024 + e.val) / 64 % 16 = e.val / 64); omega
  | ⟨2, _⟩ => show (((b.val * 1024 + p.val) * 1024 + e.val) % 64 = e.val % 64); omega
  | ⟨3, _⟩ => show (((b.val * 1024 + p.val) * 1024 + e.val) / 1024 % 1024 = p.val); omega

/-- The reference multiplies value by weight; the product is commuted under the sum. -/
theorem v24_at (b : Fin 2) (p e : Fin 1024) :
    val_main_v24 (F := Ideal) x0 x1 x2 (ix3 b p e)
      = Spec.ctx (Spec.Q x0 x2) (Spec.K x0 x2) (Spec.V x0 x2) x1 b p (Spec.headOf e) (Spec.colOf e) := by
  rw [val_main_v24_apply, val_main_v23_apply, idx_v24, val_main_v22_apply]
  unfold Spec.ctx
  refine Finset.sum_congr rfl fun j _ => ?_
  rw [lidx_v22, ridx_v22, v5_at, v21_at, mul_comm]

/-! ## The gate -/

theorem lidx_v25 (b : Fin 2) (p f k : Fin 1024) : lidx_main_v25 (ix3 b p f) k = ix3 b p k := by
  funext a; match a with | ⟨0, _⟩ => rfl | ⟨1, _⟩ => rfl | ⟨2, _⟩ => rfl

theorem ridx_v25 (b : Fin 2) (p f k : Fin 1024) : ridx_main_v25 (ix3 b p f) k = ix2 f k := by
  funext a; match a with | ⟨0, _⟩ => rfl | ⟨1, _⟩ => rfl

theorem idx_v27 (b : Fin 2) (p f : Fin 1024) : idx_main_v26 (idx_main_v27 (ix3 b p f)) = ix1 f := by
  funext a; match a with | ⟨0, _⟩ => rfl

theorem v25_at (b : Fin 2) (p f : Fin 1024) :
    val_main_v25 (F := Ideal) x0 x5 (ix3 b p f) = ∑ e : Fin 1024, x0 (ix3 b p e) * x5 (ix2 f e) := by
  rw [val_main_v25_apply]
  refine Finset.sum_congr rfl fun k _ => ?_
  rw [lidx_v25, ridx_v25]

/-- 1 / (1 + exp(−z)) with the word of 1.0 read as one is the logistic function of z. -/
theorem v34_at (b : Fin 2) (p f : Fin 1024) :
    val_main_v34 (F := Ideal) x0 x5 x6 (ix3 b p f) = Spec.gate x0 x5 x6 b p f := by
  rw [val_main_v34_apply, val_main_v33_apply, val_main_cst_4_apply, val_main_v32_apply, val_main_v31_apply,
    val_main_cst_3_apply, val_main_v30_apply, val_main_v29_apply, val_main_v28_apply, val_main_v27_apply,
    val_main_v26_apply, idx_v27, v25_at, Ideal.ofBits_def, Ideal.ofBits_one_f32]
  rfl

/-! ## The output projection, and the two results as whole arrays -/

theorem lidx_v36 (b : Fin 2) (p f k : Fin 1024) : lidx_main_v36 (ix3 b p f) k = ix3 b p k := by
  funext a; match a with | ⟨0, _⟩ => rfl | ⟨1, _⟩ => rfl | ⟨2, _⟩ => rfl

theorem ridx_v36 (b : Fin 2) (p f k : Fin 1024) : ridx_main_v36 (ix3 b p f) k = ix2 f k := by
  funext a; match a with | ⟨0, _⟩ => rfl | ⟨1, _⟩ => rfl

theorem idx_v38 (b : Fin 2) (p f : Fin 1024) : idx_main_v37 (idx_main_v38 (ix3 b p f)) = ix1 f := by
  funext a; match a with | ⟨0, _⟩ => rfl

theorem v39_at (b : Fin 2) (p f : Fin 1024) :
    val_main_v39 (F := Ideal) x0 x1 x2 x3 x4 x5 x6 (ix3 b p f)
      = Spec.yAt (Spec.Q x0 x2) (Spec.K x0 x2) (Spec.V x0 x2) x1 x0 x5 x6 x3 x4 b p f := by
  rw [val_main_v39_apply, val_main_v38_apply, val_main_v37_apply, idx_v38, val_main_v36_apply]
  unfold Spec.yAt
  refine congrArg (· + x4 (ix1 f)) (Finset.sum_congr rfl fun e _ => ?_)
  rw [lidx_v36, ridx_v36, val_main_v35_apply, v34_at, v24_at]
  rfl

theorem idx_v40 (b : Fin 2) (j : Fin 1024) (h : Fin 16) (p : Fin 1024) :
    idx_main_v40 (ix4 b j h p) = ix4 b h p j := by
  funext a; match a with | ⟨0, _⟩ => rfl | ⟨1, _⟩ => rfl | ⟨2, _⟩ => rfl | ⟨3, _⟩ => rfl

/-- The reference's first result is the specification's gated, projected output. -/
theorem v39_eq (x0 : (⟨S2x1024x1024, .f32⟩ : BufTy).Contents (Elt Ideal))
    (x1 : (⟨S2x1024x1024x16, .f32⟩ : BufTy).Contents (Elt Ideal))
    (x2 : (⟨S3072x1024, .f32⟩ : BufTy).Contents (Elt Ideal))
    (x3 : (⟨S1024x1024, .f32⟩ : BufTy).Contents (Elt Ideal))
    (x4 : (⟨S1024, .f32⟩ : BufTy).Contents (Elt Ideal))
    (x5 : (⟨S1024x1024, .f32⟩ : BufTy).Contents (Elt Ideal))
    (x6 : (⟨S1024, .f32⟩ : BufTy).Contents (Elt Ideal)) :
    Cert.ReferenceIdeal.Read.val_main_v39 (F := Ideal) x0 x1 x2 x3 x4 x5 x6
      = Cert.Spec.Y (Cert.Spec.Q x0 x2) (Cert.Spec.K x0 x2) (Cert.Spec.V x0 x2) x1 x0 x5 x6 x3 x4 := by
  funext i
  obtain ⟨b, p, f, rfl⟩ : ∃ (b : Fin 2) (p : Fin 1024) (f : Fin 1024), i = ix3 b p f := ⟨i 0, i 1, i 2, eq_ix3 i⟩
  rw [v39_at]
  rfl

/-- The reference's second result is the specification's attention weights, indexed (batch, key, head, query). -/
theorem v40_eq (x0 : (⟨S2x1024x1024, .f32⟩ : BufTy).Contents (Elt Ideal))
    (x1 : (⟨S2x1024x1024x16, .f32⟩ : BufTy).Contents (Elt Ideal))
    (x2 : (⟨S3072x1024, .f32⟩ : BufTy).Contents (Elt Ideal)) :
    Cert.ReferenceIdeal.Read.val_main_v40 (F := Ideal) x0 x1 x2
      = Cert.Spec.Attn (Cert.Spec.Q x0 x2) (Cert.Spec.K x0 x2) x1 := by
  funext i
  obtain ⟨b, j, h, p, rfl⟩ : ∃ (b : Fin 2) (j : Fin 1024) (h : Fin 16) (p : Fin 1024), i = ix4 b j h p :=
    ⟨i 0, i 1, i 2, i 3, eq_ix4 i⟩
  rw [val_main_v40_apply, idx_v40, v21_at]
  rfl

end Cert.RefSpec

end
-- ==== Proof.lean ====
/-
  A gated multi-head attention layer, 2 batches x 1024 positions x 1024 features in 16 heads of width 64, computed by two
  kernels and, for reference, by plain array operations; equal at the exact values.

  Both compute, from x, an additive bias per (batch, query, key, head), the fused projection weight (its 3072 rows
  head-major in chunks of 64 query + 64 key + 64 value rows) and the gate and output weights and biases:
    q = (x · wᵀ) · 1/8, k, v (per head);  s = q · kᵀ + bias;  a = softmax of s along the keys
    (exp (s − max s) / Σ exp (s − max s));  o = a · v;  g = 1 / (1 + exp (−(x · wgᵀ + bg)));  y = (g · o) · woᵀ + bo,
  and return y and the weights a, laid out (batch, key, head, query).

  The first kernel visits the 16 heads: at head h it multiplies all of x by the head's 192 weight rows and stores the
  head's queries (scaled), keys and values. Two host reshapes turn the bias vectors into rows. The second kernel visits
  (batch, query tile of 128 rows): for each head it forms the tile's scores against all 1024 keys, the row maxima, the
  exponentials, the row sums and the quotient, stores the quotient transposed as the head's slab of the attention
  weights, and multiplies it into the values; it then puts the sixteen heads' results side by side, gates them, and
  applies the output projection. The reference does the same on whole arrays, with the sums taken in another
  arrangement and one product (values times weights) written in the other order. At the exact values a change of float
  format is the identity, every sum is the plain finite sum whatever its order, and the kernel's logistic operation is by
  definition 1 / (1 + exp (−z)); so both results are the one function of the arguments written in Spec.lean. Only
  commutativity of the product is used, which holds for all extended reals, so the finiteness of the inputs is never
  needed.

  The kernel's two result arrays are read off its run block by block (QkvValue.lean for the first region, HeadAt.lean,
  Loads.lean, Block.lean and AttnValue.lean for the second, KernelRun.lean for the run and the arrays between the
  regions); the reference's are read one operation at a time (RefIsSpec.lean).
-/
import proofs.«175424_j3453153706649_2_alg».proof.Defs
import proofs.«175424_j3453153706649_2_alg».proof.Proof.Gen.Kernel
import proofs.«175424_j3453153706649_2_alg».proof.Proof.Gen.Kernel.Skeleton
import proofs.«175424_j3453153706649_2_alg».proof.Proof.Gen.Kernel.Launch
import proofs.«175424_j3453153706649_2_alg».proof.Proof.Gen.Kernel.Points
import proofs.«175424_j3453153706649_2_alg».proof.Proof.Gen.Kernel.Frame
import proofs.«175424_j3453153706649_2_alg».proof.Proof.Gen.KernelIdeal
import proofs.«175424_j3453153706649_2_alg».proof.Proof.Gen.KernelIdeal.Skeleton
import proofs.«175424_j3453153706649_2_alg».proof.Proof.Gen.KernelIdeal.Launch
import proofs.«175424_j3453153706649_2_alg».proof.Proof.Gen.KernelIdeal.Points
import proofs.«175424_j3453153706649_2_alg».proof.Proof.Gen.KernelIdeal.Frame
import proofs.«175424_j3453153706649_2_alg».proof.Proof.Gen.ReferenceIdeal
import proofs.«175424_j3453153706649_2_alg».proof.Proof.Gen.Pre_finite_inputs
import proofs.«175424_j3453153706649_2_alg».proof.Proof.Gen.ReferenceIdeal.Read
import proofs.«175424_j3453153706649_2_alg».proof.Proof.KernelRun
import proofs.«175424_j3453153706649_2_alg».proof.Proof.RefIsSpec
import Idealize.ShloMosaic.Adequacy
import Idealize.ShloMosaic.Init

noncomputable section

namespace Cert.Proof

open Idealize.ShloMosaic Idealize.ShloMosaic.TcCoe Idealize.SL.Sem

namespace AttentionClaims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the exact values the kernel's two result arrays end at the specification's output and attention weights of its
    arguments, and the reference's at the same functions of arguments that agree. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v39_eq, Cert.RefSpec.v39_eq, (hagree c).1, (hagree c).2.1, (hagree c).2.2.1,
      (hagree c).2.2.2.1, (hagree c).2.2.2.2.1, (hagree c).2.2.2.2.2.1, (hagree c).2.2.2.2.2.2]
  · rw [Cert.ReferenceIdeal.Read.val_main_v40_eq, Cert.RefSpec.v40_eq, (hagree c).1, (hagree c).2.1, (hagree c).2.2.1]

end AttentionClaims

theorem claim : Cert.Claim := ⟨Cert.Kernel.Gen.facts, Cert.KernelIdeal.Gen.facts, Cert.ReferenceIdeal.Gen.facts, Cert.Pre_finite_inputs.Gen.facts,
  AttentionClaims.frame_k, AttentionClaims.frame_ki, AttentionClaims.frame_ri, trivial, AttentionClaims.algebraic⟩

end Cert.Proof

end
